-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x32 .f32) (main_arg5 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 94
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1x1600000, .i32⟩
  | .hbm, ⟨12, _⟩ => ⟨S2x1600000, .i32⟩
  | .hbm, ⟨13, _⟩ => ⟨S100000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S_, .f32⟩
  | .hbm, ⟨21, _⟩ => ⟨S1700000, .f32⟩
  | .hbm, ⟨22, _⟩ => ⟨S_, .f32⟩
  | .hbm, ⟨23, _⟩ => ⟨S100000, .f32⟩
  | .hbm, ⟨24, _⟩ => ⟨S1700000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S100000x64, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x64, .f32⟩
  | .hbm, ⟨66, _⟩ => ⟨S1700000x1, .f32⟩
  | .hbm, ⟨67, _⟩ => ⟨S1700000x64, .f32⟩
  | .hbm, ⟨68, _⟩ => ⟨S1700000x64, .f32⟩
  | .hbm, ⟨69, _⟩ => ⟨S_, .f32⟩
  | .hbm, ⟨70, _⟩ => ⟨S100000x64, .f32⟩
  | .hbm, ⟨71, _⟩ => ⟨S1700000x1, .i32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x32, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000x32, .f32⟩
  | .hbm, ⟨85, _⟩ => ⟨S1700000x1, .f32⟩
  | .hbm, ⟨86, _⟩ => ⟨S1700000x32, .f32⟩
  | .hbm, ⟨87, _⟩ => ⟨S1700000x32, .f32⟩
  | .hbm, ⟨88, _⟩ => ⟨S_, .f32⟩
  | .hbm, ⟨89, _⟩ => ⟨S100000x32, .f32⟩
  | .hbm, ⟨90, _⟩ => ⟨S1700000x1, .i32⟩
  | .hbm, ⟨91, _⟩ => ⟨S100000x32, .f32⟩
  | .hbm, ⟨92, _⟩ => ⟨S1x32, .f32⟩
  | .hbm, ⟨93, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v23 : Ref sig .tc := ⟨.hbm, 36, rfl⟩
abbrev main_c : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_7 : Ref sig .tc := ⟨.hbm, 57, rfl⟩
abbrev main_v40 : Ref sig .tc := ⟨.hbm, 58, rfl⟩
abbrev main_v41 : Ref sig .tc := ⟨.hbm, 59, rfl⟩
abbrev main_c_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_10 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1x1600000_1 : S1600000.BroadcastsInDim S1x1600000 (![1] : Fin 1 → Fin S1x1600000.rank)
  concatenates_S1x1600000_S1x1600000_S2x1600000_d0 : Shape.Concatenates [S1x1600000, S1x1600000] S2x1600000 0
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v54) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v68) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 128
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x32, .f32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S100000, .f32⟩
  | .hbm, ⟨86, _⟩ => ⟨S_, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000, .f32⟩
  | .hbm, ⟨99, _⟩ => ⟨S_, .i32⟩
  | .hbm, ⟨100, _⟩ => ⟨S1700000, .i32⟩
  | .hbm, ⟨101, _⟩ => ⟨S1700000, .i1⟩
  | .hbm, ⟨102, _⟩ => ⟨S_, .i32⟩
  | .hbm, ⟨103, _⟩ => ⟨S1700000, .i32⟩
  | .hbm, ⟨104, _⟩ => ⟨S1700000, .i32⟩
  | .hbm, ⟨105, _⟩ => ⟨S1700000, .i32⟩
  | .hbm, ⟨106, _⟩ => ⟨S1700000x1, .i32⟩
  | .hbm, ⟨107, _⟩ => ⟨S1700000, .f32⟩
  | .hbm, ⟨108, _⟩ => ⟨S1700000, .f32⟩
  | .hbm, ⟨109, _⟩ => ⟨S_, .i32⟩
  | .hbm, ⟨110, _⟩ => ⟨S1700000, .i32⟩
  | .hbm, ⟨111, _⟩ => ⟨S1700000, .i1⟩
  | .hbm, ⟨112, _⟩ => ⟨S_, .i32⟩
  | .hbm, ⟨113, _⟩ => ⟨S1700000, .i32⟩
  | .hbm, ⟨114, _⟩ => ⟨S1700000, .i32⟩
  | .hbm, ⟨115, _⟩ => ⟨S1700000, .i32⟩
  | .hbm, ⟨116, _⟩ => ⟨S1700000x1, .i32⟩
  | .hbm, ⟨117, _⟩ => ⟨S1700000x32, .f32⟩
  | .hbm, ⟨118, _⟩ => ⟨S1700000x1, .f32⟩
  | .hbm, ⟨119, _⟩ => ⟨S1700000x32, .f32⟩
  | .hbm, ⟨120, _⟩ => ⟨S1700000x32, .f32⟩
  | .hbm, ⟨121, _⟩ => ⟨S_, .f32⟩
  | .hbm, ⟨122, _⟩ => ⟨S100000x32, .f32⟩
  | .hbm, ⟨123, _⟩ => ⟨S1700000x1, .i32⟩
  | .hbm, ⟨124, _⟩ => ⟨S100000x32, .f32⟩
  | .hbm, ⟨125, _⟩ => ⟨S1x32, .f32⟩
  | .hbm, ⟨126, _⟩ => ⟨S100000x32, .f32⟩
  | .hbm, ⟨127, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  What the kernel program's run leaves in memory. @main is nine segments — stretches of host operations and the four
  kernel regions — and the contents of the TensorCore's buffers at every segment boundary are a fold from the launch
  memory: a stretch applies its operations, a region leaves its arrays at what its write-backs made of them. The
  launch theorem for a program of several regions gives the whole run at once; read here against the final state is
  not only that the arguments end as launched but that EVERY buffer that is not scratch ends at the fold's last
  contents — in particular the result buffer, at what the last region left in it.
-/
import proofs.«137230_j4200478016008_1_alg».proof.Proof.Gen.KernelIdeal.Frame

set_option maxRecDepth 16384

noncomputable section

namespace Cert.GraphConv.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every buffer that is not scratch at the
    contents the fold through the nine segments ends with. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The same run read at the result buffer and the six arguments: the result ends at what the last region left in it,
    the arguments end as launched. -/
theorem run_result : θ_run defs (onTc (τ := τ) (main (F := F))) ⟨m, fun _ => 0, ρ⟩ (fun r => ∀ c : Dev nD,
      r.2.mem ((c.tc : Thread nD τ).loc main_v70) = W9 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v70 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c)⟩) (run_contents m ρ)

end Cert.GraphConv.KernelRun

end
-- ==== Proof.Spec.lean ====
/-
  The two-layer graph convolution as ONE function of its arguments.

  Nodes carry feature rows; an edge list (row, col), self loops appended, says which node's row flows to which.
  One layer is: a dense product of the node features with a weight matrix; every edge takes its source node's
  product row, scales it by the edge's normalisation, and the scaled rows are summed into the edge's target node;
  a bias row is added (and, in the first layer, the result is clamped below at zero).
  The normalisation of an edge is d(row)·d(col) with d = 1/sqrt(degree) where the degree is positive and 0 elsewhere,
  the degree of a node being the number of edges that end in it.

  The edge traffic (degree count, normalisation, gather, scale, scatter-add) is the SAME host operations in both
  programs, so it is carried here as opaque functions (`edgeNorm`, `propagate64`, `propagate32`) that no proof opens.
  The four dense stages are where the programs differ in form — blockwise matrix products and fused bias kernels against
  whole-array products and additions — and are stated index by index over the extended reals
  (`dense64`, `biasClamp64`, `dense32`, `bias32`): a product row is the sum over the 64 contracted features,
  with no rounding and no order left in it.
-/
import proofs.«137230_j4200478016008_1_alg».proof.KernelIdeal
import proofs.«137230_j4200478016008_1_alg».proof.Proof.Gen.KernelIdeal
import Idealize.ShloMosaic.PureOps.Ideal
import Idealize.ShloMosaic.PureOps.Ideal.Laws
import Idealize.ShloMosaic.Lib.ValueIdx

noncomputable section

namespace Cert.GraphConv

open Idealize.ShloMosaic Cert.KernelIdeal Cert.KernelIdeal.Facts₀

variable {F : FTy → Type} [FloatOps F]

/-! ## The edge traffic, as the host operations both programs apply -/

/-- An index vector made safe for a gather: a negative node number is shifted up by the number of nodes, and the
    vector is given the trailing unit axis the gather reads its start indices along. -/
def gatherIx (r : IVec S1700000 32) : IVec S1700000x1 32 :=
  broadcastInDim S1700000x1 ![0] bcast_S1700000_S1700000x1_0
    (select (cmpi .slt r (broadcastInDim S1700000 ![] bcast_S_S1700000 (constantI S_ 32 0#32)))
      (addi r (broadcastInDim S1700000 ![] bcast_S_S1700000 (constantI S_ 32 100000#32))) r)

/-- The in-degree of every node: a one per edge, summed into the edge's target. -/
def degree (col : IVec S1700000 32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 col)
    (broadcastInDim S1700000 ![] bcast_S_S1700000 (constant S_ .f32 0x3F800000#32))

/-- 1/sqrt(degree) where the degree is positive, 0 elsewhere. -/
def invSqrtDegree (col : IVec S1700000 32) : FVec F S100000 .f32 :=
  select (cmpf .ogt (degree (F := F) col) (broadcastInDim S100000 ![] bcast_S_S100000 (constant S_ .f32 0x00000000#32)))
    (Host.rsqrt (maximumf (degree (F := F) col) (broadcastInDim S100000 ![] bcast_S_S100000 (constant S_ .f32 0x2B8CBCCC#32))))
    (broadcastInDim S100000 ![] bcast_S_S100000 (id (constant S_ .f32 0x00000000#32)))

/-- The normalisation of every edge: the product of its two end nodes' 1/sqrt(degree). -/
def edgeNorm (row col : IVec S1700000 32) : FVec F S1700000 .f32 :=
  mulf (Host.gather gather_S100000_S1700000x1_S1700000_n_0_n_n_0_1_1 (invSqrtDegree (F := F) col) (gatherIx row))
    (Host.gather gather_S100000_S1700000x1_S1700000_n_0_n_n_0_1_1 (invSqrtDegree (F := F) col) (gatherIx col))

/-- One round of message passing over 64 features: every edge takes its source's row, scales it, and the rows are
    summed into the targets. -/
def propagate64 (xw : FVec F S100000x64 .f32) (row col : IVec S1700000 32) (nrm : FVec F S1700000 .f32) : FVec F S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 col)
    (mulf (Host.gather gather_S100000x64_S1700000x1_S1700000x64_1_0_n_n_0_1_164 xw (gatherIx row))
      (broadcastInDim S1700000x64 ![0, 1] bcast_S1700000x1_S1700000x64_0_1
        (broadcastInDim S1700000x1 ![0] bcast_S1700000_S1700000x1_0 nrm)))

/-- The same over 32 features. -/
def propagate32 (xw : FVec F S100000x32 .f32) (row col : IVec S1700000 32) (nrm : FVec F S1700000 .f32) : FVec F S100000x32 .f32 :=
  Host.scatterAdd scatter_S100000x32_S1700000x1_S1700000x32_1_0_0_1
    (broadcastInDim S100000x32 ![] bcast_S_S100000x32 (constant S_ .f32 0x00000000#32))
    (broadcastInDim S1700000x1 ![0] bcast_S1700000_S1700000x1_0 col)
    (mulf (Host.gather gather_S100000x32_S1700000x1_S1700000x32_1_0_n_n_0_1_132 xw (gatherIx row))
      (broadcastInDim S1700000x32 ![0, 1] bcast_S1700000x1_S1700000x32_0_1
        (broadcastInDim S1700000x1 ![0] bcast_S1700000_S1700000x1_0 nrm)))

/-! ## The dense stages, index by index over the extended reals -/

/-- Entry (r, k) of a [100000, 64] array. -/
abbrev at64 (r : Fin 100000) (k : Fin 64) : S100000x64.Idx := ValueIdx.ix2 r k
/-- Entry (r, k) of a [100000, 32] array. -/
abbrev at32 (r : Fin 100000) (k : Fin 32) : S100000x32.Idx := ValueIdx.ix2 r k

/-- Node features times a [64, 64] weight matrix: entry (r, n) is the sum over k of a(r, k) · w(k, n). -/
def dense64 (a : FVec Ideal S100000x64 .f32) (w : FVec Ideal S64x64 .f32) : FVec Ideal S100000x64 .f32 :=
  fun i => ∑ k : Fin 64, a (ValueIdx.ix2 (n0 := 100000) (n1 := 64) ⟨(i 0).val, (i 0).isLt⟩ k) *
    w (ValueIdx.ix2 (n0 := 64) (n1 := 64) k ⟨(i 1).val, (i 1).isLt⟩)

/-- Node features times a [64, 32] weight matrix. -/
def dense32 (a : FVec Ideal S100000x64 .f32) (w : FVec Ideal S64x32 .f32) : FVec Ideal S100000x32 .f32 :=
  fun i => ∑ k : Fin 64, a (ValueIdx.ix2 (n0 := 100000) (n1 := 64) ⟨(i 0).val, (i 0).isLt⟩ k) *
    w (ValueIdx.ix2 (n0 := 64) (n1 := 32) k ⟨(i 1).val, (i 1).isLt⟩)

/-- A bias row added to every node's 64 features, then the clamp below at zero. -/
def biasClamp64 (a : FVec Ideal S100000x64 .f32) (b : FVec Ideal S64 .f32) : FVec Ideal S100000x64 .f32 :=
  fun i => max (a i + b (ValueIdx.ix1 (n := 64) ⟨(i 1).val, (i 1).isLt⟩)) 0

/-- A bias row added to every node's 32 features. -/
def bias32 (a : FVec Ideal S100000x32 .f32) (b : FVec Ideal S32 .f32) : FVec Ideal S100000x32 .f32 :=
  fun i => a i + b (ValueIdx.ix1 (n := 32) ⟨(i 1).val, (i 1).isLt⟩)

/-! ## The network -/

/-- Both layers: the result as one function of the node features, the edge lists and the four parameters. -/
def network (x : FVec Ideal S100000x64 .f32) (row col : IVec S1700000 32) (w1 : FVec Ideal S64x64 .f32) (b1 : FVec Ideal S64 .f32)
    (w2 : FVec Ideal S64x32 .f32) (b2 : FVec Ideal S32 .f32) : FVec Ideal S100000x32 .f32 :=
  bias32 (propagate32 (dense32 (biasClamp64 (propagate64 (dense64 x w1) row col (edgeNorm (F := Ideal) row col)) b1) w2)
    row col (edgeNorm (F := Ideal) row col)) b2

end Cert.GraphConv

end
-- ==== Proof.EdgeLists.lean ====
/-
  The edge lists of the graph.

  The edges arrive as one [2, 1600000] array of node numbers: row 0 holds every edge's source, row 1 its target.
  Each list is cut out of that array (a one-row slice, read as a vector) and the 100000 self loops (node n to node n,
  an iota) are appended: `rowOf` is the source list, `colOf` the target list, both of length 1700000.

  One of the two programs first takes the two rows apart and stacks them again (slice, read as a vector, lay the vector
  along a new leading unit axis, concatenate the two one-row arrays) before it cuts the lists out. `restack` is that
  composition, and it is the identity: entry (r, t) of the stacked array lies in piece r, which at (0, t) is the
  vector's entry t, which is the slice's entry (0, t), which is the array's entry (r, t).
-/
import proofs.«137230_j4200478016008_1_alg».proof.KernelIdeal
import proofs.«137230_j4200478016008_1_alg».proof.Proof.Gen.KernelIdeal
import Idealize.ShloMosaic.Lib.ValueIdx
import Idealize.ShloMosaic.Lib.Pipeline.Value

noncomputable section

namespace Cert.GraphConv

open Idealize.ShloMosaic Idealize.ShloMosaic.ValueIdx Cert.KernelIdeal Cert.KernelIdeal.Facts₀

/-- The sources of the edges: row 0 of the edge array as a vector, then the self loops. -/
def rowOf (e : IVec S2x1600000 32) : IVec S1700000 32 :=
  concatenate S1700000 0
    [⟨S1600000, shapeCast _ (extractStridedSlice S1x1600000 ![0, 0] e slices_S2x1600000_S1x1600000_0_0) shapeCasts_S1x1600000_S1600000⟩,
     ⟨S100000, iotaInDim S100000 32 0⟩] concatenates_S1600000_S100000_S1700000_d0

/-- The targets of the edges: row 1 of the edge array as a vector, then the self loops. -/
def colOf (e : IVec S2x1600000 32) : IVec S1700000 32 :=
  concatenate S1700000 0
    [⟨S1600000, shapeCast _ (extractStridedSlice S1x1600000 ![1, 0] e slices_S2x1600000_S1x1600000_1_0) shapeCasts_S1x1600000_S1600000⟩,
     ⟨S100000, iotaInDim S100000 32 0⟩] concatenates_S1600000_S100000_S1700000_d0

/-- The two rows taken apart and stacked again. -/
def restack (e : IVec S2x1600000 32) : IVec S2x1600000 32 :=
  concatenate S2x1600000 0
    [⟨S1x1600000, broadcastInDim S1x1600000 ![1] bcast_S1600000_S1x1600000_1
        (shapeCast _ (extractStridedSlice S1x1600000 ![0, 0] e slices_S2x1600000_S1x1600000_0_0) shapeCasts_S1x1600000_S1600000)⟩,
     ⟨S1x1600000, broadcastInDim S1x1600000 ![1] bcast_S1600000_S1x1600000_1
        (shapeCast _ (extractStridedSlice S1x1600000 ![1, 0] e slices_S2x1600000_S1x1600000_1_0) shapeCasts_S1x1600000_S1600000)⟩]
    concatenates_S1x1600000_S1x1600000_S2x1600000_d0

/-- One row r₀ of the array, read as a vector and laid along a leading unit axis, has at (0, t) the array's (r₀, t). -/
theorem rowPiece_apply (e : IVec S2x1600000 32) (r₀ : Fin 2) (off : Fin 2 → Nat) (hoff0 : off 0 = r₀.val) (hoff1 : off 1 = 0)
    (hs : S2x1600000.Slices off S1x1600000) (t : Fin 1600000) :
    broadcastInDim S1x1600000 ![1] bcast_S1600000_S1x1600000_1
        (shapeCast S1600000 (extractStridedSlice S1x1600000 off e hs) shapeCasts_S1x1600000_S1600000) (ix2 (0 : Fin 1) t)
      = e (ix2 r₀ t) := by
  refine (broadcastInDim_apply ![1] bcast_S1600000_S1x1600000_1 _ (ix2 (0 : Fin 1) t) (ix1 t) (by
    intro a
    match a with
    | ⟨0, _⟩ =>
      show t.val = if (1600000 : ℕ) = 1 then 0 else t.val
      rw [if_neg (by decide)])).trans ?_
  refine (shapeCast_apply _ shapeCasts_S1x1600000_S1600000 (ix1 t) (ix2 (0 : Fin 1) t) (by
    rw [Shape.rowMajor_val_two, Shape.rowMajor_val_one]; show 0 * 1600000 + t.val = t.val; omega)).trans ?_
  exact extractStridedSlice_apply off e hs (ix2 (0 : Fin 1) t) (ix2 r₀ t) (by
    intro a
    match a with
    | ⟨0, _⟩ => show r₀.val = off 0 + 0; omega
    | ⟨1, _⟩ => show t.val = off 1 + t.val; omega)

/-- Taking the two rows apart and stacking them again gives the array back. -/
theorem restack_eq (e : IVec S2x1600000 32) : restack e = e := by
  funext j
  have h0 : (j 0).val < 2 := idx2_lt0 j
  have h1 : (j 1).val < 1600000 := idx2_lt1 j
  unfold restack
  by_cases hj : (j 0).val = 0
  · refine (concatenate_pair_apply_left (t := S2x1600000) (s₁ := S1x1600000) (s₂ := S1x1600000) (0 : Fin 2) _ _
      concatenates_S1x1600000_S1x1600000_S2x1600000_d0 j rfl (ix2 (0 : Fin 1) (j 1)) (by
        intro b
        match b with
        | ⟨0, _⟩ => show 0 = (j 0).val; omega
        | ⟨1, _⟩ => rfl)).trans ?_
    refine (rowPiece_apply e 0 ![0, 0] rfl rfl slices_S2x1600000_S1x1600000_0_0 (j 1)).trans ?_
    refine congrArg e ?_
    funext a
    match a with
    | ⟨0, _⟩ => exact Fin.ext (by show 0 = (j 0).val; omega)
    | ⟨1, _⟩ => rfl
  · have hj1 : (j 0).val = 1 := by omega
    refine (concatenate_pair_apply_right (t := S2x1600000) (s₁ := S1x1600000) (s₂ := S1x1600000) (0 : Fin 2) _ _
      concatenates_S1x1600000_S1x1600000_S2x1600000_d0 j rfl rfl (ix2 (0 : Fin 1) (j 1)) (by
        intro b hb
        match b with
        | ⟨0, _⟩ => exact absurd rfl hb
        | ⟨1, _⟩ => rfl) (by
        show 0 + 1 = (j 0).val; omega)).trans ?_
    refine (rowPiece_apply e 1 ![1, 0] rfl rfl slices_S2x1600000_S1x1600000_1_0 (j 1)).trans ?_
    refine congrArg e ?_
    funext a
    match a with
    | ⟨0, _⟩ => exact Fin.ext (by show 1 = (j 0).val; omega)
    | ⟨1, _⟩ => rfl

/-- So the lists cut out of the stacked array are the lists cut out of the array. -/
theorem rowOf_restack (e : IVec S2x1600000 32) : rowOf (restack e) = rowOf e := by rw [restack_eq]
theorem colOf_restack (e : IVec S2x1600000 32) : colOf (restack e) = colOf e := by rw [restack_eq]

end Cert.GraphConv

end
-- ==== Proof.Dense1.lean ====
/-
  The first dense stage: node features [100000, 64] times a [64, 64] weight matrix, computed ten row blocks of
  10000 nodes at a time. Each grid point multiplies its block of rows by the whole weight matrix and writes the
  block of the product back; a product row depends only on its own feature row, so the ten written blocks are the
  blocks of ONE whole-array product, and together they fill the result array.
-/
import proofs.«137230_j4200478016008_1_alg».proof.Proof.Gen.KernelIdeal.Frame
import proofs.«137230_j4200478016008_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.GraphConv.Dense1

open Cert.KernelIdeal Cert.KernelIdeal.Gen Cert.GraphConv Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The block product's dimension record: rows × contraction times contraction × columns. -/
abbrev D := dot_S10000x64_S64x64_S10000x64_1_0_0_1_n_n

/-! ## Where the product reads its two operands -/

theorem lhs_row (i : S10000x64.Idx) (q : D.contr.Idx) : (D.lhsIdx i q 0).val = (i 0).val := by
  unfold DotDims.lhsIdx
  rw [dif_neg (show ¬(0 : Fin S10000x64.rank) ∈ D.lhsBatch by decide), dif_pos (show (0 : Fin S10000x64.rank) ∈ D.lhsNonContracting by decide)]
  rfl
theorem lhs_contr (i : S10000x64.Idx) (q : D.contr.Idx) : (D.lhsIdx i q 1).val = (q ⟨0, by decide⟩).val :=
  D.lhsIdx_val_of_single rfl i q
theorem rhs_contr (i : S10000x64.Idx) (q : D.contr.Idx) : (D.rhsIdx i q 0).val = (q ⟨0, by decide⟩).val :=
  D.rhsIdx_val_of_single rfl i q
theorem rhs_col (i : S10000x64.Idx) (q : D.contr.Idx) : (D.rhsIdx i q 1).val = (i 1).val := by
  unfold DotDims.rhsIdx
  rw [dif_neg (show ¬(1 : Fin S64x64.rank) ∈ D.rhsBatch by decide), dif_pos (show (1 : Fin S64x64.rank) ∈ D.rhsNonContracting by decide)]
  rfl

/-- One block's product at an entry: the sum over the 64 contracted features of row entry times column entry
    (the narrowing of the operands to a shorter float format is the identity on extended reals, and the accumulator
    the product starts from is zero). -/
theorem block_product (x0 : Vec Ideal S10000x64 .f32) (x1 : Vec Ideal S64x64 .f32) (y : S10000x64.Idx) :
    k0_pay1 (F := Ideal) x0 x1 y = ∑ k : Fin 64, x0 (ix2 (n0 := 10000) (n1 := 64) ⟨(y 0).val, (y 0).isLt⟩ k) *
      x1 (ix2 (n0 := 64) (n1 := 64) k ⟨(y 1).val, (y 1).isLt⟩) := by
  unfold k0_pay1
  refine (Ideal.matmul_constant_zero_apply D none _ _ y).trans ?_
  rw [← Equiv.sum_comp (contrEquiv1 D 64 rfl rfl).symm]
  refine Finset.sum_congr rfl fun k _ => ?_
  have hk := contrEquiv1_symm_val D 64 rfl rfl k
  have el : D.lhsIdx y ((contrEquiv1 D 64 rfl rfl).symm k) = ix2 (n0 := 10000) (n1 := 64) ⟨(y 0).val, (y 0).isLt⟩ k :=
    funext fun a => Fin.ext (by
      match a with
      | ⟨0, _⟩ => exact lhs_row _ _
      | ⟨1, _⟩ => exact (lhs_contr _ _).trans hk)
  have er : D.rhsIdx y ((contrEquiv1 D 64 rfl rfl).symm k) = ix2 (n0 := 64) (n1 := 64) k ⟨(y 1).val, (y 1).isLt⟩ :=
    funext fun a => Fin.ext (by
      match a with
      | ⟨0, _⟩ => exact (rhs_contr _ _).trans hk
      | ⟨1, _⟩ => exact rhs_col _ _)
  rw [el, er]
  rfl

/-- A block's product is the whole product's entry, once the block's rows are the array's rows at the block's place
    and the weight block is the weight matrix. -/
theorem block_value (x0 : Vec Ideal S10000x64 .f32) (x1 : Vec Ideal S64x64 .f32)
    (a : FVec Ideal S100000x64 .f32) (w : FVec Ideal S64x64 .f32) (y : S10000x64.Idx) (i : S100000x64.Idx)
    (h0 : ∀ k : Fin 64, x0 (ix2 (n0 := 10000) (n1 := 64) ⟨(y 0).val, (y 0).isLt⟩ k)
      = a (ix2 (n0 := 100000) (n1 := 64) ⟨(i 0).val, (i 0).isLt⟩ k))
    (h1 : ∀ k : Fin 64, x1 (ix2 (n0 := 64) (n1 := 64) k ⟨(y 1).val, (y 1).isLt⟩)
      = w (ix2 (n0 := 64) (n1 := 64) k ⟨(i 1).val, (i 1).isLt⟩)) :
    k0_pay1 (F := Ideal) x0 x1 y = dense64 a w i := by
  rw [block_product]
  unfold dense64
  exact Finset.sum_congr rfl fun k _ => by rw [h0 k, h1 k]

/-! ## The blocks of the three windows -/

/-- The printed index maps over the ten grid points: the row block of the features moves with the output's, on the
    row axis; every other block index is zero. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row blocks of the output is some point's. -/
theorem idx_onto : ∀ q : Fin 10, ∃ t : Fin cfg0.N, win0_2.index t = ![q.val, 0] :=
  (by decide +kernel : ∀ q : Fin 10, ∃ t : Fin grid0.N, win0_2.index t = ![q.val, 0])

/-- The feature window's block at a point is the feature array read at the block's place. -/
theorem features_block (c : Dev nD) (t : Fin cfg0.N) (y : S10000x64.Idx) (i : S100000x64.Idx)
    (h0 : (i 0).val = win0_0.index t (0 : Fin 2) * 10000 + (y 0).val)
    (h1 : (i 1).val = win0_0.index t (1 : Fin 2) * 64 + (y 1).val) :
    (iblk0 V c 0 t : Vec Ideal S10000x64 .f32) y = (V c main_arg0 : FVec Ideal S100000x64 .f32) i := by
  unfold iblk0
  rw [View.read_apply]
  show V c main_arg0 _ = V c main_arg0 _
  refine congrArg (V c main_arg0) ?_
  funext a
  apply Fin.ext
  match a with
  | ⟨0, _⟩ => show win0_0.index t (0 : Fin 2) * 10000 + 1 * (y 0).val = (i 0).val; omega
  | ⟨1, _⟩ => show win0_0.index t (1 : Fin 2) * 64 + 1 * (y 1).val = (i 1).val; omega

/-- The weight window's block at a point is the weight matrix read at the block's place. -/
theorem weights_block (c : Dev nD) (t : Fin cfg0.N) (y : S64x64.Idx) (i : S64x64.Idx)
    (h0 : (i 0).val = win0_1.index t (0 : Fin 2) * 64 + (y 0).val)
    (h1 : (i 1).val = win0_1.index t (1 : Fin 2) * 64 + (y 1).val) :
    (iblk0 V c 1 t : Vec Ideal S64x64 .f32) y = (V c main_arg2 : FVec Ideal S64x64 .f32) i := by
  unfold iblk0
  rw [View.read_apply]
  show V c main_arg2 _ = V c main_arg2 _
  refine congrArg (V c main_arg2) ?_
  funext a
  apply Fin.ext
  match a with
  | ⟨0, _⟩ => show win0_1.index t (0 : Fin 2) * 64 + 1 * (y 0).val = (i 0).val; omega
  | ⟨1, _⟩ => show win0_1.index t (1 : Fin 2) * 64 + 1 * (y 1).val = (i 1).val; omega

/-- What point `t` writes back is block `t` of the whole product. -/
theorem flushed_eq (c : Dev nD) (t : Fin cfg0.N) :
    (dat0 V c).flushed 2 t = ((cfg0.win 2).blk t).view.read (Elt Ideal) (dense64 (V c main_arg0) (V c main_arg2)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨e0, e1, e2, e3, e4, e5⟩ := idx_facts t
  funext j
  show k0_pay1 (F := Ideal) (iblk0 V c 0 t) (iblk0 V c 1 t) j
    = dense64 (V c main_arg0) (V c main_arg2) (((cfg0.win 2).blk t).view.emb j)
  have hE0 : ((((cfg0.win 2).blk t).view.emb j) 0).val = win0_2.index t (0 : Fin 2) * 10000 + 1 * (j 0).val := rfl
  have hE1 : ((((cfg0.win 2).blk t).view.emb j) 1).val = win0_2.index t (1 : Fin 2) * 64 + 1 * (j 1).val := rfl
  refine block_value _ _ _ _ j _ (fun k => ?_) (fun k => ?_)
  · refine features_block V c t _ _ ?_ ?_
    · show ((((cfg0.win 2).blk t).view.emb j) 0).val = win0_0.index t (0 : Fin 2) * 10000 + (j 0).val
      rw [hE0, e0]; omega
    · show k.val = win0_0.index t (1 : Fin 2) * 64 + k.val
      rw [e1]; omega
  · refine weights_block V c t _ _ ?_ ?_
    · show k.val = win0_1.index t (0 : Fin 2) * 64 + k.val
      rw [e2]; omega
    · show ((((cfg0.win 2).blk t).view.emb j) 1).val = win0_1.index t (1 : Fin 2) * 64 + (j 1).val
      rw [hE1, e3, e4]; omega

/-! ## The ten row blocks fill the array -/

theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v39).slice (win0_2.rect t)).set ↔ _
  rw [View.set_slice_whole, Rect.mem_set_unit]
  exact Iff.rfl

theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The array the region leaves: the whole product of the feature array and the weight matrix it was entered with. -/
theorem value (c : Dev nD) :
    (dat0 (F := Ideal) V c).arrAt 2 cfg0.N = dense64 (V c main_arg0) (V c main_arg2) :=
  (dat0 V c).arrAt_eq_of_cover 2 _ (fun t _ => flushed_eq V c t) (cover)

end Cert.GraphConv.Dense1

end
-- ==== Proof.BiasClamp.lean ====
/-
  The first layer's bias and clamp: to every node's 64 aggregated features the bias row is added and the result is
  clamped below at zero, ten row blocks of 10000 nodes at a time. The operation is entry by entry, so each written
  block is a block of ONE whole-array function of the aggregated features and the bias row, and the ten blocks fill
  the result.
-/
import proofs.«137230_j4200478016008_1_alg».proof.Proof.Gen.KernelIdeal.Frame
import proofs.«137230_j4200478016008_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.GraphConv.BiasClamp

open Cert.KernelIdeal Cert.KernelIdeal.Gen Cert.GraphConv Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- One block at an entry (r, n): the block's entry plus the bias row's entry n, clamped below at zero
    (the shape casts are identities, the one bias row is repeated over the block's rows). -/
theorem block_entry (x0 : Vec Ideal S10000x64 .f32) (x1 : Vec Ideal S1x64 .f32) (r : Fin 10000) (n : Fin 64) :
    k1_pay1 (F := Ideal) x0 x1 (ix2 r n) = max (x0 (ix2 r n) + x1 (ix2 (0 : Fin 1) n)) 0 := by
  unfold k1_pay1
  simp only [shapeCast_self]
  show max (x0 (ix2 r n) + broadcastTo S10000x64 x1 broadcasts_S1x64_S10000x64 (ix2 r n)) (Ideal.ofBits .f32 0x00000000#32) = _
  rw [broadcastTo_1b_ab_apply, Ideal.ofBits_zero_f32]

/-- A block's result is the whole array's entry, once the block's entry is the array's at the block's place and the
    bias block is the bias row. -/
theorem block_value (x0 : Vec Ideal S10000x64 .f32) (x1 : Vec Ideal S1x64 .f32)
    (a : FVec Ideal S100000x64 .f32) (b : FVec Ideal S1x64 .f32) (y : S10000x64.Idx) (i : S100000x64.Idx)
    (h0 : x0 y = a i)
    (h1 : x1 (ix2 (0 : Fin 1) (⟨(y 1).val, (y 1).isLt⟩ : Fin 64)) = b (ix2 (0 : Fin 1) (⟨(i 1).val, (i 1).isLt⟩ : Fin 64))) :
    k1_pay1 (F := Ideal) x0 x1 y
      = biasClamp64 a (fun j => b (ix2 (n0 := 1) (n1 := 64) 0 ⟨(j 0).val, (j 0).isLt⟩)) i := by
  obtain ⟨r, n, rfl⟩ : ∃ (r : Fin 10000) (n : Fin 64), y = ix2 r n := ⟨y 0, y 1, eq_ix2 y⟩
  have h1' : x1 (ix2 (0 : Fin 1) n) = b (ix2 (0 : Fin 1) (⟨(i 1).val, (i 1).isLt⟩ : Fin 64)) := h1
  rw [block_entry, h0, h1']
  rfl

/-! ## The blocks of the three windows -/

/-- The printed index maps over the ten grid points: the input's row block moves with the output's, on the row
    axis; every other block index is zero. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every one of the ten row blocks of the output is some point's. -/
theorem idx_onto : ∀ q : Fin 10, ∃ t : Fin cfg1.N, win1_2.index t = ![q.val, 0] :=
  (by decide +kernel : ∀ q : Fin 10, ∃ t : Fin grid1.N, win1_2.index t = ![q.val, 0])

/-- The input window's block at a point is the input array read at the block's place. -/
theorem input_block (c : Dev nD) (t : Fin cfg1.N) (y : S10000x64.Idx) (i : S100000x64.Idx)
    (h0 : (i 0).val = win1_0.index t (0 : Fin 2) * 10000 + (y 0).val)
    (h1 : (i 1).val = win1_0.index t (1 : Fin 2) * 64 + (y 1).val) :
    (iblk1 V c 0 t : Vec Ideal S10000x64 .f32) y = (V c main_v52 : FVec Ideal S100000x64 .f32) i := by
  unfold iblk1
  rw [View.read_apply]
  show V c main_v52 _ = V c main_v52 _
  refine congrArg (V c main_v52) ?_
  funext a
  apply Fin.ext
  match a with
  | ⟨0, _⟩ => show win1_0.index t (0 : Fin 2) * 10000 + 1 * (y 0).val = (i 0).val; omega
  | ⟨1, _⟩ => show win1_0.index t (1 : Fin 2) * 64 + 1 * (y 1).val = (i 1).val; omega

/-- The bias window's block at a point is the bias row read at the block's place. -/
theorem bias_block (c : Dev nD) (t : Fin cfg1.N) (y : S1x64.Idx) (i : S1x64.Idx)
    (h0 : (i 0).val = win1_1.index t (0 : Fin 2) * 1 + (y 0).val)
    (h1 : (i 1).val = win1_1.index t (1 : Fin 2) * 64 + (y 1).val) :
    (iblk1 V c 1 t : Vec Ideal S1x64 .f32) y = (V c main_v53 : FVec Ideal S1x64 .f32) i := by
  unfold iblk1
  rw [View.read_apply]
  show V c main_v53 _ = V c main_v53 _
  refine congrArg (V c main_v53) ?_
  funext a
  apply Fin.ext
  match a with
  | ⟨0, _⟩ => show win1_1.index t (0 : Fin 2) * 1 + 1 * (y 0).val = (i 0).val; omega
  | ⟨1, _⟩ => show win1_1.index t (1 : Fin 2) * 64 + 1 * (y 1).val = (i 1).val; omega

/-- What point `t` writes back is block `t` of the whole array's result. -/
theorem flushed_eq (c : Dev nD) (t : Fin cfg1.N) :
    (dat1 V c).flushed 2 t = ((cfg1.win 2).blk t).view.read (Elt Ideal)
      (biasClamp64 (V c main_v52) (fun j => (V c main_v53 : FVec Ideal S1x64 .f32) (ix2 (n0 := 1) (n1 := 64) 0 ⟨(j 0).val, (j 0).isLt⟩))) := by
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  obtain ⟨e0, e1, e2, e3, e4, e5⟩ := idx_facts t
  funext j
  show k1_pay1 (F := Ideal) (iblk1 V c 0 t) (iblk1 V c 1 t) j
    = biasClamp64 (V c main_v52) (fun j => (V c main_v53 : FVec Ideal S1x64 .f32) (ix2 (n0 := 1) (n1 := 64) 0 ⟨(j 0).val, (j 0).isLt⟩))
        (((cfg1.win 2).blk t).view.emb j)
  have hE0 : ((((cfg1.win 2).blk t).view.emb j) 0).val = win1_2.index t (0 : Fin 2) * 10000 + 1 * (j 0).val := rfl
  have hE1 : ((((cfg1.win 2).blk t).view.emb j) 1).val = win1_2.index t (1 : Fin 2) * 64 + 1 * (j 1).val := rfl
  refine block_value _ _ _ _ j _ ?_ ?_
  · refine input_block V c t _ _ ?_ ?_
    · show ((((cfg1.win 2).blk t).view.emb j) 0).val = win1_0.index t (0 : Fin 2) * 10000 + (j 0).val
      rw [hE0, e0]; omega
    · show ((((cfg1.win 2).blk t).view.emb j) 1).val = win1_0.index t (1 : Fin 2) * 64 + (j 1).val
      rw [hE1, e1, e4]; omega
  · refine bias_block V c t _ _ ?_ ?_
    · show (0 : Nat) = win1_1.index t (0 : Fin 2) * 1 + 0
      rw [e2]
    · show ((((cfg1.win 2).blk t).view.emb j) 1).val = win1_1.index t (1 : Fin 2) * 64 + (j 1).val
      rw [hE1, e3, e4]; omega

/-! ## The ten row blocks fill the array -/

theorem mem_blk (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v54).slice (win1_2.rect t)).set ↔ _
  rw [View.set_slice_whole, Rect.mem_set_unit]
  exact Iff.rfl

theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The array the region leaves: the input array it was entered with, the bias row added to every node's row and the clamp applied. -/
theorem value (c : Dev nD) :
    (dat1 (F := Ideal) V c).arrAt 2 cfg1.N = biasClamp64 (V c main_v52)
      (fun j => (V c main_v53 : FVec Ideal S1x64 .f32) (ix2 (n0 := 1) (n1 := 64) 0 ⟨(j 0).val, (j 0).isLt⟩)) :=
  (dat1 V c).arrAt_eq_of_cover 2 _ (fun t _ => flushed_eq V c t) (cover)

end Cert.GraphConv.BiasClamp

end
-- ==== Proof.Dense2.lean ====
/-
  The second dense stage: the hidden features [100000, 64] times a [64, 32] weight matrix, again ten row blocks of
  10000 nodes at a time; each grid point writes back its block of the product, and the ten blocks are the blocks of
  ONE whole-array product and fill the [100000, 32] result.
-/
import proofs.«137230_j4200478016008_1_alg».proof.Proof.Gen.KernelIdeal.Frame
import proofs.«137230_j4200478016008_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.GraphConv.Dense2

open Cert.KernelIdeal Cert.KernelIdeal.Gen Cert.GraphConv Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The block product's dimension record: rows × contraction times contraction × columns. -/
abbrev D := dot_S10000x64_S64x32_S10000x32_1_0_0_1_n_n

/-! ## Where the product reads its two operands -/

theorem lhs_row (i : S10000x32.Idx) (q : D.contr.Idx) : (D.lhsIdx i q 0).val = (i 0).val := by
  unfold DotDims.lhsIdx
  rw [dif_neg (show ¬(0 : Fin S10000x64.rank) ∈ D.lhsBatch by decide), dif_pos (show (0 : Fin S10000x64.rank) ∈ D.lhsNonContracting by decide)]
  rfl
theorem lhs_contr (i : S10000x32.Idx) (q : D.contr.Idx) : (D.lhsIdx i q 1).val = (q ⟨0, by decide⟩).val :=
  D.lhsIdx_val_of_single rfl i q
theorem rhs_contr (i : S10000x32.Idx) (q : D.contr.Idx) : (D.rhsIdx i q 0).val = (q ⟨0, by decide⟩).val :=
  D.rhsIdx_val_of_single rfl i q
theorem rhs_col (i : S10000x32.Idx) (q : D.contr.Idx) : (D.rhsIdx i q 1).val = (i 1).val := by
  unfold DotDims.rhsIdx
  rw [dif_neg (show ¬(1 : Fin S64x32.rank) ∈ D.rhsBatch by decide), dif_pos (show (1 : Fin S64x32.rank) ∈ D.rhsNonContracting by decide)]
  rfl

/-- One block's product at an entry: the sum over the 64 contracted features of row entry times column entry
    (the narrowing of the operands to a shorter float format is the identity on extended reals, and the accumulator
    the product starts from is zero). -/
theorem block_product (x0 : Vec Ideal S10000x64 .f32) (x1 : Vec Ideal S64x32 .f32) (y : S10000x32.Idx) :
    k2_pay1 (F := Ideal) x0 x1 y = ∑ k : Fin 64, x0 (ix2 (n0 := 10000) (n1 := 64) ⟨(y 0).val, (y 0).isLt⟩ k) *
      x1 (ix2 (n0 := 64) (n1 := 32) k ⟨(y 1).val, (y 1).isLt⟩) := by
  unfold k2_pay1
  simp only [shapeCast_self]
  refine (Ideal.matmul_constant_zero_apply D none _ _ y).trans ?_
  rw [← Equiv.sum_comp (contrEquiv1 D 64 rfl rfl).symm]
  refine Finset.sum_congr rfl fun k _ => ?_
  have hk := contrEquiv1_symm_val D 64 rfl rfl k
  have el : D.lhsIdx y ((contrEquiv1 D 64 rfl rfl).symm k) = ix2 (n0 := 10000) (n1 := 64) ⟨(y 0).val, (y 0).isLt⟩ k :=
    funext fun a => Fin.ext (by
      match a with
      | ⟨0, _⟩ => exact lhs_row _ _
      | ⟨1, _⟩ => exact (lhs_contr _ _).trans hk)
  have er : D.rhsIdx y ((contrEquiv1 D 64 rfl rfl).symm k) = ix2 (n0 := 64) (n1 := 32) k ⟨(y 1).val, (y 1).isLt⟩ :=
    funext fun a => Fin.ext (by
      match a with
      | ⟨0, _⟩ => exact (rhs_contr _ _).trans hk
      | ⟨1, _⟩ => exact rhs_col _ _)
  rw [el, er]
  rfl

/-- A block's product is the whole product's entry, once the block's rows are the array's rows at the block's place
    and the weight block is the weight matrix. -/
theorem block_value (x0 : Vec Ideal S10000x64 .f32) (x1 : Vec Ideal S64x32 .f32)
    (a : FVec Ideal S100000x64 .f32) (w : FVec Ideal S64x32 .f32) (y : S10000x32.Idx) (i : S100000x32.Idx)
    (h0 : ∀ k : Fin 64, x0 (ix2 (n0 := 10000) (n1 := 64) ⟨(y 0).val, (y 0).isLt⟩ k)
      = a (ix2 (n0 := 100000) (n1 := 64) ⟨(i 0).val, (i 0).isLt⟩ k))
    (h1 : ∀ k : Fin 64, x1 (ix2 (n0 := 64) (n1 := 32) k ⟨(y 1).val, (y 1).isLt⟩)
      = w (ix2 (n0 := 64) (n1 := 32) k ⟨(i 1).val, (i 1).isLt⟩)) :
    k2_pay1 (F := Ideal) x0 x1 y = dense32 a w i := by
  rw [block_product]
  unfold dense32
  exact Finset.sum_congr rfl fun k _ => by rw [h0 k, h1 k]

/-! ## The blocks of the three windows -/

/-- The printed index maps over the ten grid points: the row block of the features moves with the output's, on the
    row axis; every other block index is zero. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every one of the ten row blocks of the output is some point's. -/
theorem idx_onto : ∀ q : Fin 10, ∃ t : Fin cfg2.N, win2_2.index t = ![q.val, 0] :=
  (by decide +kernel : ∀ q : Fin 10, ∃ t : Fin grid2.N, win2_2.index t = ![q.val, 0])

/-- The feature window's block at a point is the feature array read at the block's place. -/
theorem features_block (c : Dev nD) (t : Fin cfg2.N) (y : S10000x64.Idx) (i : S100000x64.Idx)
    (h0 : (i 0).val = win2_0.index t (0 : Fin 2) * 10000 + (y 0).val)
    (h1 : (i 1).val = win2_0.index t (1 : Fin 2) * 64 + (y 1).val) :
    (iblk2 V c 0 t : Vec Ideal S10000x64 .f32) y = (V c main_v54 : FVec Ideal S100000x64 .f32) i := by
  unfold iblk2
  rw [View.read_apply]
  show V c main_v54 _ = V c main_v54 _
  refine congrArg (V c main_v54) ?_
  funext a
  apply Fin.ext
  match a with
  | ⟨0, _⟩ => show win2_0.index t (0 : Fin 2) * 10000 + 1 * (y 0).val = (i 0).val; omega
  | ⟨1, _⟩ => show win2_0.index t (1 : Fin 2) * 64 + 1 * (y 1).val = (i 1).val; omega

/-- The weight window's block at a point is the weight matrix read at the block's place. -/
theorem weights_block (c : Dev nD) (t : Fin cfg2.N) (y : S64x32.Idx) (i : S64x32.Idx)
    (h0 : (i 0).val = win2_1.index t (0 : Fin 2) * 64 + (y 0).val)
    (h1 : (i 1).val = win2_1.index t (1 : Fin 2) * 32 + (y 1).val) :
    (iblk2 V c 1 t : Vec Ideal S64x32 .f32) y = (V c main_arg4 : FVec Ideal S64x32 .f32) i := by
  unfold iblk2
  rw [View.read_apply]
  show V c main_arg4 _ = V c main_arg4 _
  refine congrArg (V c main_arg4) ?_
  funext a
  apply Fin.ext
  match a with
  | ⟨0, _⟩ => show win2_1.index t (0 : Fin 2) * 64 + 1 * (y 0).val = (i 0).val; omega
  | ⟨1, _⟩ => show win2_1.index t (1 : Fin 2) * 32 + 1 * (y 1).val = (i 1).val; omega

/-- What point `t` writes back is block `t` of the whole product. -/
theorem flushed_eq (c : Dev nD) (t : Fin cfg2.N) :
    (dat2 V c).flushed 2 t = ((cfg2.win 2).blk t).view.read (Elt Ideal) (dense32 (V c main_v54) (V c main_arg4)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x32) hz]
  obtain ⟨e0, e1, e2, e3, e4, e5⟩ := idx_facts t
  funext j
  show k2_pay1 (F := Ideal) (iblk2 V c 0 t) (iblk2 V c 1 t) j
    = dense32 (V c main_v54) (V c main_arg4) (((cfg2.win 2).blk t).view.emb j)
  have hE0 : ((((cfg2.win 2).blk t).view.emb j) 0).val = win2_2.index t (0 : Fin 2) * 10000 + 1 * (j 0).val := rfl
  have hE1 : ((((cfg2.win 2).blk t).view.emb j) 1).val = win2_2.index t (1 : Fin 2) * 32 + 1 * (j 1).val := rfl
  refine block_value _ _ _ _ j _ (fun k => ?_) (fun k => ?_)
  · refine features_block V c t _ _ ?_ ?_
    · show ((((cfg2.win 2).blk t).view.emb j) 0).val = win2_0.index t (0 : Fin 2) * 10000 + (j 0).val
      rw [hE0, e0]; omega
    · show k.val = win2_0.index t (1 : Fin 2) * 64 + k.val
      rw [e1]; omega
  · refine weights_block V c t _ _ ?_ ?_
    · show k.val = win2_1.index t (0 : Fin 2) * 64 + k.val
      rw [e2]; omega
    · show ((((cfg2.win 2).blk t).view.emb j) 1).val = win2_1.index t (1 : Fin 2) * 32 + (j 1).val
      rw [hE1, e3, e4]; omega

/-! ## The ten row blocks fill the array -/

theorem mem_blk (t : Fin cfg2.N) (i : S100000x32.Idx) :
    i ∈ ((cfg2.win 2).blk t).view.set ↔ ∀ a : Fin 2, win2_2.index t a * S10000x32.size a ≤ (i a).val
      ∧ (i a).val < win2_2.index t a * S10000x32.size a + S10000x32.size a := by
  show i ∈ ((View.whole main_v55).slice (win2_2.rect t)).set ↔ _
  rw [View.set_slice_whole, Rect.mem_set_unit]
  exact Iff.rfl

theorem cover (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 32 ≤ (i 1).val ∧ (i 1).val < win2_2.index t (1 : Fin 2) * 32 + 32; omega

/-- The array the region leaves: the whole product of the feature array and the weight matrix it was entered with. -/
theorem value (c : Dev nD) :
    (dat2 (F := Ideal) V c).arrAt 2 cfg2.N = dense32 (V c main_v54) (V c main_arg4) :=
  (dat2 V c).arrAt_eq_of_cover 2 _ (fun t _ => flushed_eq V c t) (cover)

end Cert.GraphConv.Dense2

end
-- ==== Proof.Bias.lean ====
/-
  The second layer's bias: to every node's 32 aggregated features the bias row is added, ten row blocks of 10000
  nodes at a time; entry by entry, so the ten written blocks are the blocks of ONE whole-array function and fill
  the result.
-/
import proofs.«137230_j4200478016008_1_alg».proof.Proof.Gen.KernelIdeal.Frame
import proofs.«137230_j4200478016008_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.GraphConv.Bias

open Cert.KernelIdeal Cert.KernelIdeal.Gen Cert.GraphConv Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- One block at an entry (r, n): the block's entry plus the bias row's entry n
    (the shape casts are identities, the one bias row is repeated over the block's rows). -/
theorem block_entry (x0 : Vec Ideal S10000x32 .f32) (x1 : Vec Ideal S1x32 .f32) (r : Fin 10000) (n : Fin 32) :
    k3_pay1 (F := Ideal) x0 x1 (ix2 r n) = x0 (ix2 r n) + x1 (ix2 (0 : Fin 1) n) := by
  unfold k3_pay1
  simp only [shapeCast_self]
  show x0 (ix2 r n) + broadcastTo S10000x32 x1 broadcasts_S1x32_S10000x32 (ix2 r n) = _
  rw [broadcastTo_1b_ab_apply]

/-- A block's result is the whole array's entry, once the block's entry is the array's at the block's place and the
    bias block is the bias row. -/
theorem block_value (x0 : Vec Ideal S10000x32 .f32) (x1 : Vec Ideal S1x32 .f32)
    (a : FVec Ideal S100000x32 .f32) (b : FVec Ideal S1x32 .f32) (y : S10000x32.Idx) (i : S100000x32.Idx)
    (h0 : x0 y = a i)
    (h1 : x1 (ix2 (0 : Fin 1) (⟨(y 1).val, (y 1).isLt⟩ : Fin 32)) = b (ix2 (0 : Fin 1) (⟨(i 1).val, (i 1).isLt⟩ : Fin 32))) :
    k3_pay1 (F := Ideal) x0 x1 y
      = bias32 a (fun j => b (ix2 (n0 := 1) (n1 := 32) 0 ⟨(j 0).val, (j 0).isLt⟩)) i := by
  obtain ⟨r, n, rfl⟩ : ∃ (r : Fin 10000) (n : Fin 32), y = ix2 r n := ⟨y 0, y 1, eq_ix2 y⟩
  have h1' : x1 (ix2 (0 : Fin 1) n) = b (ix2 (0 : Fin 1) (⟨(i 1).val, (i 1).isLt⟩ : Fin 32)) := h1
  rw [block_entry, h0, h1']
  rfl

/-! ## The blocks of the three windows -/

/-- The printed index maps over the ten grid points: the input's row block moves with the output's, on the row
    axis; every other block index is zero. -/
theorem idx_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every one of the ten row blocks of the output is some point's. -/
theorem idx_onto : ∀ q : Fin 10, ∃ t : Fin cfg3.N, win3_2.index t = ![q.val, 0] :=
  (by decide +kernel : ∀ q : Fin 10, ∃ t : Fin grid3.N, win3_2.index t = ![q.val, 0])

/-- The input window's block at a point is the input array read at the block's place. -/
theorem input_block (c : Dev nD) (t : Fin cfg3.N) (y : S10000x32.Idx) (i : S100000x32.Idx)
    (h0 : (i 0).val = win3_0.index t (0 : Fin 2) * 10000 + (y 0).val)
    (h1 : (i 1).val = win3_0.index t (1 : Fin 2) * 32 + (y 1).val) :
    (iblk3 V c 0 t : Vec Ideal S10000x32 .f32) y = (V c main_v68 : FVec Ideal S100000x32 .f32) i := by
  unfold iblk3
  rw [View.read_apply]
  show V c main_v68 _ = V c main_v68 _
  refine congrArg (V c main_v68) ?_
  funext a
  apply Fin.ext
  match a with
  | ⟨0, _⟩ => show win3_0.index t (0 : Fin 2) * 10000 + 1 * (y 0).val = (i 0).val; omega
  | ⟨1, _⟩ => show win3_0.index t (1 : Fin 2) * 32 + 1 * (y 1).val = (i 1).val; omega

/-- The bias window's block at a point is the bias row read at the block's place. -/
theorem bias_block (c : Dev nD) (t : Fin cfg3.N) (y : S1x32.Idx) (i : S1x32.Idx)
    (h0 : (i 0).val = win3_1.index t (0 : Fin 2) * 1 + (y 0).val)
    (h1 : (i 1).val = win3_1.index t (1 : Fin 2) * 32 + (y 1).val) :
    (iblk3 V c 1 t : Vec Ideal S1x32 .f32) y = (V c main_v69 : FVec Ideal S1x32 .f32) i := by
  unfold iblk3
  rw [View.read_apply]
  show V c main_v69 _ = V c main_v69 _
  refine congrArg (V c main_v69) ?_
  funext a
  apply Fin.ext
  match a with
  | ⟨0, _⟩ => show win3_1.index t (0 : Fin 2) * 1 + 1 * (y 0).val = (i 0).val; omega
  | ⟨1, _⟩ => show win3_1.index t (1 : Fin 2) * 32 + 1 * (y 1).val = (i 1).val; omega

/-- What point `t` writes back is block `t` of the whole array's result. -/
theorem flushed_eq (c : Dev nD) (t : Fin cfg3.N) :
    (dat3 V c).flushed 2 t = ((cfg3.win 2).blk t).view.read (Elt Ideal)
      (bias32 (V c main_v68) (fun j => (V c main_v69 : FVec Ideal S1x32 .f32) (ix2 (n0 := 1) (n1 := 32) 0 ⟨(j 0).val, (j 0).isLt⟩))) := by
  show (cfg3.win 2).cut (grid3.coords t) ((dat3 V c).after 2 t) = _
  rw [after3_2]
  unfold out3_2
  rw [View.canon_unit_zero hz]
  simp only [View.ld_unit_zero (S := S10000x32) hz, View.ld_unit_zero (S := S1x32) hz]
  obtain ⟨e0, e1, e2, e3, e4, e5⟩ := idx_facts t
  funext j
  show k3_pay1 (F := Ideal) (iblk3 V c 0 t) (iblk3 V c 1 t) j
    = bias32 (V c main_v68) (fun j => (V c main_v69 : FVec Ideal S1x32 .f32) (ix2 (n0 := 1) (n1 := 32) 0 ⟨(j 0).val, (j 0).isLt⟩))
        (((cfg3.win 2).blk t).view.emb j)
  have hE0 : ((((cfg3.win 2).blk t).view.emb j) 0).val = win3_2.index t (0 : Fin 2) * 10000 + 1 * (j 0).val := rfl
  have hE1 : ((((cfg3.win 2).blk t).view.emb j) 1).val = win3_2.index t (1 : Fin 2) * 32 + 1 * (j 1).val := rfl
  refine block_value _ _ _ _ j _ ?_ ?_
  · refine input_block V c t _ _ ?_ ?_
    · show ((((cfg3.win 2).blk t).view.emb j) 0).val = win3_0.index t (0 : Fin 2) * 10000 + (j 0).val
      rw [hE0, e0]; omega
    · show ((((cfg3.win 2).blk t).view.emb j) 1).val = win3_0.index t (1 : Fin 2) * 32 + (j 1).val
      rw [hE1, e1, e4]; omega
  · refine bias_block V c t _ _ ?_ ?_
    · show (0 : Nat) = win3_1.index t (0 : Fin 2) * 1 + 0
      rw [e2]
    · show ((((cfg3.win 2).blk t).view.emb j) 1).val = win3_1.index t (1 : Fin 2) * 32 + (j 1).val
      rw [hE1, e3, e4]; omega

/-! ## The ten row blocks fill the array -/

theorem mem_blk (t : Fin cfg3.N) (i : S100000x32.Idx) :
    i ∈ ((cfg3.win 2).blk t).view.set ↔ ∀ a : Fin 2, win3_2.index t a * S10000x32.size a ≤ (i a).val
      ∧ (i a).val < win3_2.index t a * S10000x32.size a + S10000x32.size a := by
  show i ∈ ((View.whole main_v70).slice (win3_2.rect t)).set ↔ _
  rw [View.set_slice_whole, Rect.mem_set_unit]
  exact Iff.rfl

theorem cover (i : S100000x32.Idx) : ∃ t : Fin cfg3.N, (cfg3.win 2).flush t = true ∧ i ∈ ((cfg3.win 2).blk t).view.set := by
  have hi0 : (i 0).val < 100000 := (i 0).isLt
  have hi1 : (i 1).val < 32 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 32 ≤ (i 1).val ∧ (i 1).val < win3_2.index t (1 : Fin 2) * 32 + 32; omega

/-- The array the region leaves: the input array it was entered with, the bias row added to every node's row. -/
theorem value (c : Dev nD) :
    (dat3 (F := Ideal) V c).arrAt 2 cfg3.N = bias32 (V c main_v68)
      (fun j => (V c main_v69 : FVec Ideal S1x32 .f32) (ix2 (n0 := 1) (n1 := 32) 0 ⟨(j 0).val, (j 0).isLt⟩)) :=
  (dat3 V c).arrAt_eq_of_cover 2 _ (fun t _ => flushed_eq V c t) (cover)

end Cert.GraphConv.Bias

end
-- ==== Proof.KernelHost.lean ====
/-
  The kernel program's result as one function of its arguments, over the extended reals.

  The program runs stretches of host operations and four pipelined regions in turn. Its buffer contents are followed from
  the launch to the return, one boundary at a time: a stretch of host operations leaves in each buffer it writes the
  operations' composed term of what the stretch was entered with; a region leaves in its result array the dense stage it
  computes (a matrix product, or a bias row added) of its operand arrays, and every other buffer as it was. The edge lists
  are cut out of the re-stacked edge array, which is the edge array, and every later stage reads the same lists and the
  same edge normalisation, so the result is the two-layer network of the six arguments.
-/
import proofs.«137230_j4200478016008_1_alg».proof.Proof.Gen.KernelIdeal.Frame
import proofs.«137230_j4200478016008_1_alg».proof.Proof.Spec
import proofs.«137230_j4200478016008_1_alg».proof.Proof.EdgeLists
import proofs.«137230_j4200478016008_1_alg».proof.Proof.Dense1
import proofs.«137230_j4200478016008_1_alg».proof.Proof.BiasClamp
import proofs.«137230_j4200478016008_1_alg».proof.Proof.Dense2
import proofs.«137230_j4200478016008_1_alg».proof.Proof.Bias
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem

open Cert.KernelIdeal Cert.KernelIdeal.Facts₀ Cert.GraphConv Idealize.ShloMosaic.StableHlo Idealize.ShloMosaic.ValueIdx
open Cert.KernelIdeal.Gen (W0 W1 W2 W3 W4 W5 W6 W7 W8 W9 V3 V5 V6 V8 W4_arr W4_of_ne W6_arr W6_of_ne W7_arr W7_of_ne W9_arr W9_of_ne
  hostOps0 hostOps0_1 hostOps0_2 hostOps1 hostOps3)

namespace Cert.GraphConv.KernelHost

/-! ## A bias row stored as a one-row matrix, read back -/

/-- A vector of 64 entries viewed as a [1, 64] matrix has at (0, k) the vector's entry k. -/
theorem unrow64 (b : FVec Ideal S64 .f32) :
    (fun j : S64.Idx => (shapeCast S1x64 b shapeCasts_S64_S1x64) (ix2 (n0 := 1) (n1 := 64) 0 ⟨(j 0).val, (j 0).isLt⟩)) = b := by
  funext j
  refine (shapeCast_apply b shapeCasts_S64_S1x64 (ix2 (n0 := 1) (n1 := 64) 0 ⟨(j 0).val, (j 0).isLt⟩) j (by
    rw [Shape.rowMajor_val_one, Shape.rowMajor_val_two]; show (j 0).val = 0 * 64 + (j 0).val; omega))

/-- A vector of 32 entries viewed as a [1, 32] matrix has at (0, k) the vector's entry k. -/
theorem unrow32 (b : FVec Ideal S32 .f32) :
    (fun j : S32.Idx => (shapeCast S1x32 b shapeCasts_S32_S1x32) (ix2 (n0 := 1) (n1 := 32) 0 ⟨(j 0).val, (j 0).isLt⟩)) = b := by
  funext j
  refine (shapeCast_apply b shapeCasts_S32_S1x32 (ix2 (n0 := 1) (n1 := 32) 0 ⟨(j 0).val, (j 0).isLt⟩) j (by
    rw [Shape.rowMajor_val_one, Shape.rowMajor_val_two]; show (j 0).val = 0 * 32 + (j 0).val; omega))

variable (m : (ℓ : Loc nD τ sig) → Buf (Elt Ideal) ℓ) (ρ : Dev nD → PrngReg) (c : Dev nD)

/-! ## Up to the first region: the edge lists, the edge normalisation, the arguments untouched -/

theorem W3_arg0 : W3 m ρ c (Proc.devRef .tc main_arg0) = (m ((c : Thread nD τ).loc main_arg0)) := by
  show StableHlo.after hostOps0_2 (StableHlo.after hostOps0_1 (StableHlo.after hostOps0 (W0 m ρ c))) _ = _
  after_results_simp <;> rfl
theorem W3_arg1 : W3 m ρ c (Proc.devRef .tc main_arg1) = (m ((c : Thread nD τ).loc main_arg1)) := by
  show StableHlo.after hostOps0_2 (StableHlo.after hostOps0_1 (StableHlo.after hostOps0 (W0 m ρ c))) _ = _
  after_results_simp <;> rfl
theorem W3_arg2 : W3 m ρ c (Proc.devRef .tc main_arg2) = (m ((c : Thread nD τ).loc main_arg2)) := by
  show StableHlo.after hostOps0_2 (StableHlo.after hostOps0_1 (StableHlo.after hostOps0 (W0 m ρ c))) _ = _
  after_results_simp <;> rfl
theorem W3_arg3 : W3 m ρ c (Proc.devRef .tc main_arg3) = (m ((c : Thread nD τ).loc main_arg3)) := by
  show StableHlo.after hostOps0_2 (StableHlo.after hostOps0_1 (StableHlo.after hostOps0 (W0 m ρ c))) _ = _
  after_results_simp <;> rfl
theorem W3_arg4 : W3 m ρ c (Proc.devRef .tc main_arg4) = (m ((c : Thread nD τ).loc main_arg4)) := by
  show StableHlo.after hostOps0_2 (StableHlo.after hostOps0_1 (StableHlo.after hostOps0 (W0 m ρ c))) _ = _
  after_results_simp <;> rfl
theorem W3_arg5 : W3 m ρ c (Proc.devRef .tc main_arg5) = (m ((c : Thread nD τ).loc main_arg5)) := by
  show StableHlo.after hostOps0_2 (StableHlo.after hostOps0_1 (StableHlo.after hostOps0 (W0 m ρ c))) _ = _
  after_results_simp <;> rfl

/-- The source list, cut out of the re-stacked edge array. -/
theorem W3_v10 : W3 m ρ c (Proc.devRef .tc main_v10) = (rowOf (m ((c : Thread nD τ).loc main_arg1))) := by
  have h : W3 m ρ c (Proc.devRef .tc main_v10) = rowOf (restack (m ((c : Thread nD τ).loc main_arg1))) := by
    show StableHlo.after hostOps0_2 (StableHlo.after hostOps0_1 (StableHlo.after hostOps0 (W0 m ρ c))) _ = _
    after_results_simp <;> rfl
  rw [h, rowOf_restack]
/-- The target list. -/
theorem W3_v13 : W3 m ρ c (Proc.devRef .tc main_v13) = (colOf (m ((c : Thread nD τ).loc main_arg1))) := by
  have h : W3 m ρ c (Proc.devRef .tc main_v13) = colOf (restack (m ((c : Thread nD τ).loc main_arg1))) := by
    show StableHlo.after hostOps0_2 (StableHlo.after hostOps0_1 (StableHlo.after hostOps0 (W0 m ρ c))) _ = _
    after_results_simp <;> rfl
  rw [h, colOf_restack]
/-! The edge normalisation is reached one stretch at a time: the degree test and the reciprocal square root after the
    first stretch, their selection after the second, the two gathers and their product after the third. -/

/-- After the first stretch: where the degree is positive. -/
theorem W1_v19 : W1 m ρ c (Proc.devRef .tc main_v19) = cmpf (F := Ideal) .ogt (degree (F := Ideal) (colOf (m ((c : Thread nD τ).loc main_arg1)))) (broadcastInDim S100000 ![] bcast_S_S100000 (constant S_ .f32 0x00000000#32)) := by
  have h : W1 m ρ c (Proc.devRef .tc main_v19) = cmpf (F := Ideal) .ogt (degree (F := Ideal) (colOf (restack (m ((c : Thread nD τ).loc main_arg1))))) (broadcastInDim S100000 ![] bcast_S_S100000 (constant S_ .f32 0x00000000#32)) := by
    show StableHlo.after hostOps0 (W0 m ρ c) _ = _
    after_results_simp <;> rfl
  rw [h, colOf_restack]
/-- After the first stretch: the reciprocal square root of the degree, kept away from zero. -/
theorem W1_v22 : W1 m ρ c (Proc.devRef .tc main_v22) = Host.rsqrt (maximumf (degree (F := Ideal) (colOf (m ((c : Thread nD τ).loc main_arg1)))) (broadcastInDim S100000 ![] bcast_S_S100000 (constant S_ .f32 0x2B8CBCCC#32))) := by
  have h : W1 m ρ c (Proc.devRef .tc main_v22) = Host.rsqrt (maximumf (degree (F := Ideal) (colOf (restack (m ((c : Thread nD τ).loc main_arg1))))) (broadcastInDim S100000 ![] bcast_S_S100000 (constant S_ .f32 0x2B8CBCCC#32))) := by
    show StableHlo.after hostOps0 (W0 m ρ c) _ = _
    after_results_simp <;> rfl
  rw [h, colOf_restack]
theorem W1_cst3 : W1 m ρ c (Proc.devRef .tc main_cst_3) = (constant S_ .f32 0x00000000#32 : FVec Ideal S_ .f32) := by
  show StableHlo.after hostOps0 (W0 m ρ c) _ = _
  after_results_simp <;> rfl

/-- The second stretch, from any contents: the selection. -/
theorem s1_v23 (V : Valuation τ sig (Elt Ideal)) : StableHlo.after hostOps0_1 V (Proc.devRef .tc main_v23)
    = (select (V (Proc.devRef .tc main_v19)) (V (Proc.devRef .tc main_v22)) (broadcastInDim S100000 ![] bcast_S_S100000 (id (V (Proc.devRef .tc main_cst_3)))) : FVec Ideal S100000 .f32) := by
  after_results_simp <;> rfl
/-- The third stretch, from any contents: the two gathers' product. -/
theorem s2_v38 (V : Valuation τ sig (Elt Ideal)) : StableHlo.after hostOps0_2 V (Proc.devRef .tc main_v38)
    = (mulf (Host.gather gather_S100000_S1700000x1_S1700000_n_0_n_n_0_1_1 (V (Proc.devRef .tc main_v23)) (gatherIx (V (Proc.devRef .tc main_v10))))
        (Host.gather gather_S100000_S1700000x1_S1700000_n_0_n_n_0_1_1 (V (Proc.devRef .tc main_v23)) (gatherIx (V (Proc.devRef .tc main_v13)))) : FVec Ideal S1700000 .f32) := by
  after_results_simp <;> rfl

theorem W2_v10 : W2 m ρ c (Proc.devRef .tc main_v10) = (rowOf (m ((c : Thread nD τ).loc main_arg1))) := by
  have h : W2 m ρ c (Proc.devRef .tc main_v10) = rowOf (restack (m ((c : Thread nD τ).loc main_arg1))) := by
    show StableHlo.after hostOps0_1 (StableHlo.after hostOps0 (W0 m ρ c)) _ = _
    after_results_simp <;> rfl
  rw [h, rowOf_restack]
theorem W2_v13 : W2 m ρ c (Proc.devRef .tc main_v13) = (colOf (m ((c : Thread nD τ).loc main_arg1))) := by
  have h : W2 m ρ c (Proc.devRef .tc main_v13) = colOf (restack (m ((c : Thread nD τ).loc main_arg1))) := by
    show StableHlo.after hostOps0_1 (StableHlo.after hostOps0 (W0 m ρ c)) _ = _
    after_results_simp <;> rfl
  rw [h, colOf_restack]
/-- After the second stretch: 1/sqrt(degree) where the degree is positive, 0 elsewhere. -/
theorem W2_v23 : W2 m ρ c (Proc.devRef .tc main_v23) = invSqrtDegree (F := Ideal) (colOf (m ((c : Thread nD τ).loc main_arg1))) := by
  have h : W2 m ρ c (Proc.devRef .tc main_v23) = (select (W1 m ρ c (Proc.devRef .tc main_v19)) (W1 m ρ c (Proc.devRef .tc main_v22))
      (broadcastInDim S100000 ![] bcast_S_S100000 (id (W1 m ρ c (Proc.devRef .tc main_cst_3)))) : FVec Ideal S100000 .f32) := s1_v23 (W1 m ρ c)
  rw [h, W1_v19, W1_v22, W1_cst3]
  rfl
/-- The edge normalisation. -/
theorem W3_v38 : W3 m ρ c (Proc.devRef .tc main_v38) = (edgeNorm (F := Ideal) (rowOf (m ((c : Thread nD τ).loc main_arg1))) (colOf (m ((c : Thread nD τ).loc main_arg1)))) := by
  have h : W3 m ρ c (Proc.devRef .tc main_v38) = (mulf (Host.gather gather_S100000_S1700000x1_S1700000_n_0_n_n_0_1_1 (W2 m ρ c (Proc.devRef .tc main_v23)) (gatherIx (W2 m ρ c (Proc.devRef .tc main_v10))))
      (Host.gather gather_S100000_S1700000x1_S1700000_n_0_n_n_0_1_1 (W2 m ρ c (Proc.devRef .tc main_v23)) (gatherIx (W2 m ρ c (Proc.devRef .tc main_v13)))) : FVec Ideal S1700000 .f32) := s2_v38 (W2 m ρ c)
  rw [h, W2_v23, W2_v10, W2_v13]
  rfl

/-! ## Region 0: the first dense product -/

theorem W4_v39 : W4 m ρ c (Proc.devRef .tc main_v39) = (dense64 (m ((c : Thread nD τ).loc main_arg0)) (m ((c : Thread nD τ).loc main_arg2))) := by
  refine (W4_arr m ρ c 2).trans ?_
  refine (Dense1.value (V3 m ρ) c).trans ?_
  exact congrArg₂ dense64 (W3_arg0 m ρ c) (W3_arg2 m ρ c)
theorem W4_v10 : W4 m ρ c (Proc.devRef .tc main_v10) = (rowOf (m ((c : Thread nD τ).loc main_arg1))) :=
  (W4_of_ne m ρ c main_v10 (by decide)).trans (W3_v10 m ρ c)
theorem W4_v13 : W4 m ρ c (Proc.devRef .tc main_v13) = (colOf (m ((c : Thread nD τ).loc main_arg1))) :=
  (W4_of_ne m ρ c main_v13 (by decide)).trans (W3_v13 m ρ c)
theorem W4_v38 : W4 m ρ c (Proc.devRef .tc main_v38) = (edgeNorm (F := Ideal) (rowOf (m ((c : Thread nD τ).loc main_arg1))) (colOf (m ((c : Thread nD τ).loc main_arg1)))) :=
  (W4_of_ne m ρ c main_v38 (by decide)).trans (W3_v38 m ρ c)
theorem W4_arg3 : W4 m ρ c (Proc.devRef .tc main_arg3) = (m ((c : Thread nD τ).loc main_arg3)) :=
  (W4_of_ne m ρ c main_arg3 (by decide)).trans (W3_arg3 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)

/-! ## The first round of message passing, and the first bias row as a one-row matrix -/

theorem W5_v52 : W5 m ρ c (Proc.devRef .tc main_v52) = (propagate64 (dense64 (m ((c : Thread nD τ).loc main_arg0)) (m ((c : Thread nD τ).loc main_arg2))) (rowOf (m ((c : Thread nD τ).loc main_arg1))) (colOf (m ((c : Thread nD τ).loc main_arg1))) (edgeNorm (F := Ideal) (rowOf (m ((c : Thread nD τ).loc main_arg1))) (colOf (m ((c : Thread nD τ).loc main_arg1))))) := by
  have h : W5 m ρ c (Proc.devRef .tc main_v52) = propagate64 (F := Ideal) (W4 m ρ c (Proc.devRef .tc main_v39)) (W4 m ρ c (Proc.devRef .tc main_v10))
      (W4 m ρ c (Proc.devRef .tc main_v13)) (W4 m ρ c (Proc.devRef .tc main_v38)) := by
    show StableHlo.after hostOps1 (W4 m ρ c) _ = _
    after_results_simp <;> rfl
  rw [h, W4_v39, W4_v10, W4_v13, W4_v38]
theorem W5_v53 : W5 m ρ c (Proc.devRef .tc main_v53) = shapeCast S1x64 (m ((c : Thread nD τ).loc main_arg3)) shapeCasts_S64_S1x64 := by
  have h : W5 m ρ c (Proc.devRef .tc main_v53) = shapeCast S1x64 (W4 m ρ c (Proc.devRef .tc main_arg3)) shapeCasts_S64_S1x64 := by
    show StableHlo.after hostOps1 (W4 m ρ c) _ = _
    after_results_simp <;> rfl
  rw [h, W4_arg3]
theorem W5_v10 : W5 m ρ c (Proc.devRef .tc main_v10) = (rowOf (m ((c : Thread nD τ).loc main_arg1))) := by
  have h : W5 m ρ c (Proc.devRef .tc main_v10) = W4 m ρ c (Proc.devRef .tc main_v10) := by
    show StableHlo.after hostOps1 (W4 m ρ c) _ = _
    after_results_simp <;> rfl
  rw [h, W4_v10]
theorem W5_v13 : W5 m ρ c (Proc.devRef .tc main_v13) = (colOf (m ((c : Thread nD τ).loc main_arg1))) := by
  have h : W5 m ρ c (Proc.devRef .tc main_v13) = W4 m ρ c (Proc.devRef .tc main_v13) := by
    show StableHlo.after hostOps1 (W4 m ρ c) _ = _
    after_results_simp <;> rfl
  rw [h, W4_v13]
theorem W5_v38 : W5 m ρ c (Proc.devRef .tc main_v38) = (edgeNorm (F := Ideal) (rowOf (m ((c : Thread nD τ).loc main_arg1))) (colOf (m ((c : Thread nD τ).loc main_arg1)))) := by
  have h : W5 m ρ c (Proc.devRef .tc main_v38) = W4 m ρ c (Proc.devRef .tc main_v38) := by
    show StableHlo.after hostOps1 (W4 m ρ c) _ = _
    after_results_simp <;> rfl
  rw [h, W4_v38]
theorem W5_arg4 : W5 m ρ c (Proc.devRef .tc main_arg4) = (m ((c : Thread nD τ).loc main_arg4)) := by
  have h : W5 m ρ c (Proc.devRef .tc main_arg4) = W4 m ρ c (Proc.devRef .tc main_arg4) := by
    show StableHlo.after hostOps1 (W4 m ρ c) _ = _
    after_results_simp <;> rfl
  rw [h, W4_arg4]
theorem W5_arg5 : W5 m ρ c (Proc.devRef .tc main_arg5) = (m ((c : Thread nD τ).loc main_arg5)) := by
  have h : W5 m ρ c (Proc.devRef .tc main_arg5) = W4 m ρ c (Proc.devRef .tc main_arg5) := by
    show StableHlo.after hostOps1 (W4 m ρ c) _ = _
    after_results_simp <;> rfl
  rw [h, W4_arg5]

/-! ## Region 1: the bias row added, clamped below at zero -/

theorem W6_v54 : W6 m ρ c (Proc.devRef .tc main_v54) = (biasClamp64 (propagate64 (dense64 (m ((c : Thread nD τ).loc main_arg0)) (m ((c : Thread nD τ).loc main_arg2))) (rowOf (m ((c : Thread nD τ).loc main_arg1))) (colOf (m ((c : Thread nD τ).loc main_arg1))) (edgeNorm (F := Ideal) (rowOf (m ((c : Thread nD τ).loc main_arg1))) (colOf (m ((c : Thread nD τ).loc main_arg1))))) (m ((c : Thread nD τ).loc main_arg3))) := by
  refine (W6_arr m ρ c 2).trans ?_
  refine (BiasClamp.value (V5 m ρ) c).trans ?_
  refine congrArg₂ biasClamp64 (W5_v52 m ρ c) ?_
  refine Eq.trans ?_ (unrow64 (m ((c : Thread nD τ).loc main_arg3)))
  funext j
  exact congrFun (W5_v53 m ρ c) _
theorem W6_v10 : W6 m ρ c (Proc.devRef .tc main_v10) = (rowOf (m ((c : Thread nD τ).loc main_arg1))) :=
  (W6_of_ne m ρ c main_v10 (by decide)).trans (W5_v10 m ρ c)
theorem W6_v13 : W6 m ρ c (Proc.devRef .tc main_v13) = (colOf (m ((c : Thread nD τ).loc main_arg1))) :=
  (W6_of_ne m ρ c main_v13 (by decide)).trans (W5_v13 m ρ c)
theorem W6_v38 : W6 m ρ c (Proc.devRef .tc main_v38) = (edgeNorm (F := Ideal) (rowOf (m ((c : Thread nD τ).loc main_arg1))) (colOf (m ((c : Thread nD τ).loc main_arg1)))) :=
  (W6_of_ne m ρ c main_v38 (by decide)).trans (W5_v38 m ρ c)
theorem W6_arg4 : W6 m ρ c (Proc.devRef .tc main_arg4) = (m ((c : Thread nD τ).loc main_arg4)) :=
  (W6_of_ne m ρ c main_arg4 (by decide)).trans (W5_arg4 m ρ c)
theorem W6_arg5 : W6 m ρ c (Proc.devRef .tc main_arg5) = (m ((c : Thread nD τ).loc main_arg5)) :=
  (W6_of_ne m ρ c main_arg5 (by decide)).trans (W5_arg5 m ρ c)

/-! ## Region 2: the second dense product -/

theorem W7_v55 : W7 m ρ c (Proc.devRef .tc main_v55) = (dense32 (biasClamp64 (propagate64 (dense64 (m ((c : Thread nD τ).loc main_arg0)) (m ((c : Thread nD τ).loc main_arg2))) (rowOf (m ((c : Thread nD τ).loc main_arg1))) (colOf (m ((c : Thread nD τ).loc main_arg1))) (edgeNorm (F := Ideal) (rowOf (m ((c : Thread nD τ).loc main_arg1))) (colOf (m ((c : Thread nD τ).loc main_arg1))))) (m ((c : Thread nD τ).loc main_arg3))) (m ((c : Thread nD τ).loc main_arg4))) := by
  refine (W7_arr m ρ c 2).trans ?_
  refine (Dense2.value (V6 m ρ) c).trans ?_
  exact congrArg₂ dense32 (W6_v54 m ρ c) (W6_arg4 m ρ c)
theorem W7_v10 : W7 m ρ c (Proc.devRef .tc main_v10) = (rowOf (m ((c : Thread nD τ).loc main_arg1))) :=
  (W7_of_ne m ρ c main_v10 (by decide)).trans (W6_v10 m ρ c)
theorem W7_v13 : W7 m ρ c (Proc.devRef .tc main_v13) = (colOf (m ((c : Thread nD τ).loc main_arg1))) :=
  (W7_of_ne m ρ c main_v13 (by decide)).trans (W6_v13 m ρ c)
theorem W7_v38 : W7 m ρ c (Proc.devRef .tc main_v38) = (edgeNorm (F := Ideal) (rowOf (m ((c : Thread nD τ).loc main_arg1))) (colOf (m ((c : Thread nD τ).loc main_arg1)))) :=
  (W7_of_ne m ρ c main_v38 (by decide)).trans (W6_v38 m ρ c)
theorem W7_arg5 : W7 m ρ c (Proc.devRef .tc main_arg5) = (m ((c : Thread nD τ).loc main_arg5)) :=
  (W7_of_ne m ρ c main_arg5 (by decide)).trans (W6_arg5 m ρ c)

/-! ## The second round of message passing, and the second bias row as a one-row matrix -/

theorem W8_v68 : W8 m ρ c (Proc.devRef .tc main_v68) = (propagate32 (dense32 (biasClamp64 (propagate64 (dense64 (m ((c : Thread nD τ).loc main_arg0)) (m ((c : Thread nD τ).loc main_arg2))) (rowOf (m ((c : Thread nD τ).loc main_arg1))) (colOf (m ((c : Thread nD τ).loc main_arg1))) (edgeNorm (F := Ideal) (rowOf (m ((c : Thread nD τ).loc main_arg1))) (colOf (m ((c : Thread nD τ).loc main_arg1))))) (m ((c : Thread nD τ).loc main_arg3))) (m ((c : Thread nD τ).loc main_arg4))) (rowOf (m ((c : Thread nD τ).loc main_arg1))) (colOf (m ((c : Thread nD τ).loc main_arg1))) (edgeNorm (F := Ideal) (rowOf (m ((c : Thread nD τ).loc main_arg1))) (colOf (m ((c : Thread nD τ).loc main_arg1))))) := by
  have h : W8 m ρ c (Proc.devRef .tc main_v68) = propagate32 (F := Ideal) (W7 m ρ c (Proc.devRef .tc main_v55)) (W7 m ρ c (Proc.devRef .tc main_v10))
      (W7 m ρ c (Proc.devRef .tc main_v13)) (W7 m ρ c (Proc.devRef .tc main_v38)) := by
    show StableHlo.after hostOps3 (W7 m ρ c) _ = _
    after_results_simp <;> rfl
  rw [h, W7_v55, W7_v10, W7_v13, W7_v38]
theorem W8_v69 : W8 m ρ c (Proc.devRef .tc main_v69) = shapeCast S1x32 (m ((c : Thread nD τ).loc main_arg5)) shapeCasts_S32_S1x32 := by
  have h : W8 m ρ c (Proc.devRef .tc main_v69) = shapeCast S1x32 (W7 m ρ c (Proc.devRef .tc main_arg5)) shapeCasts_S32_S1x32 := by
    show StableHlo.after hostOps3 (W7 m ρ c) _ = _
    after_results_simp <;> rfl
  rw [h, W7_arg5]

end Cert.GraphConv.KernelHost

namespace Cert.GraphConv

/-! ## Region 3: the second bias row added — the result -/

/-- The kernel program's result buffer holds the two-layer network of the six arguments. -/
theorem kernel_value (m : (ℓ : Loc nD τ sig) → Buf (Elt Ideal) ℓ) (ρ : Dev nD → PrngReg) (c : Dev nD) :
    W9 (F := Ideal) m ρ c (Proc.devRef .tc main_v70)
    = network (m ((c : Thread nD τ).loc main_arg0)) (rowOf (m ((c : Thread nD τ).loc main_arg1))) (colOf (m ((c : Thread nD τ).loc main_arg1))) (m ((c : Thread nD τ).loc main_arg2)) (m ((c : Thread nD τ).loc main_arg3)) (m ((c : Thread nD τ).loc main_arg4)) (m ((c : Thread nD τ).loc main_arg5)) := by
  refine (W9_arr m ρ c 2).trans ?_
  refine (Bias.value (V8 m ρ) c).trans ?_
  unfold network
  refine congrArg₂ bias32 (KernelHost.W8_v68 m ρ c) ?_
  refine Eq.trans ?_ (KernelHost.unrow32 (m ((c : Thread nD τ).loc main_arg5)))
  funext j
  exact congrFun (KernelHost.W8_v69 m ρ c) _

end Cert.GraphConv

end
-- ==== Proof.ReferenceHost.lean ====
/-
  The reference program's result as the network. Its run ends with the result buffer at ONE long composed term of
  the arguments: the two layers' host operations spelt out. That term is the network's shape exactly — the same
  degree count, edge normalisation, gather, scale and scatter-add, carried here as the opaque functions they are —
  except for the four dense stages, which the reference writes as whole-array host operations: a `dot_general`
  (entry (r, n) is the sum over the 64 contracted features of x(r, k) · w(k, n)), and a bias row laid along every
  node's row and added (then, in the first layer, the maximum with a zero array). Each of the four is the network's
  stage, entry by entry.
-/
import proofs.«137230_j4200478016008_1_alg».proof.Proof.ReferenceRun
import proofs.«137230_j4200478016008_1_alg».proof.Proof.Spec
import proofs.«137230_j4200478016008_1_alg».proof.Proof.EdgeLists
import Idealize.ShloMosaic.Lib.Pipeline.Value
import Idealize.ShloMosaic.Lib.ValueIdx
import Idealize.ShloMosaic.Lib.IdealHost
import Idealize.ShloMosaic.Lib.KernelVsHost
import Idealize.ShloMosaic.PureOps.Ideal.Laws

set_option maxRecDepth 16384

noncomputable section

open Idealize.ShloMosaic Idealize.ShloMosaic.TcCoe Idealize.SL.Sem

namespace Cert.GraphConv.Reference

open Cert.KernelIdeal Cert.KernelIdeal.Facts₀ Cert.GraphConv Idealize.ShloMosaic.ValueIdx

/-- The reference's two whole-array products, by their dimension records. -/
abbrev D1 := Cert.ReferenceIdeal.dot_S100000x64_S64x64_S100000x64_1_0_0_1_n_n
abbrev D2 := Cert.ReferenceIdeal.dot_S100000x64_S64x32_S100000x32_1_0_0_1_n_n

/-! ## The first product -/

theorem d1_lhs_row (i : S100000x64.Idx) (q : D1.contr.Idx) : (D1.lhsIdx i q 0).val = (i 0).val := by
  unfold DotDims.lhsIdx
  rw [dif_neg (show ¬(0 : Fin S100000x64.rank) ∈ D1.lhsBatch by decide), dif_pos (show (0 : Fin S100000x64.rank) ∈ D1.lhsNonContracting by decide)]
  rfl
theorem d1_lhs_contr (i : S100000x64.Idx) (q : D1.contr.Idx) : (D1.lhsIdx i q 1).val = (q ⟨0, by decide⟩).val :=
  D1.lhsIdx_val_of_single rfl i q
theorem d1_rhs_contr (i : S100000x64.Idx) (q : D1.contr.Idx) : (D1.rhsIdx i q 0).val = (q ⟨0, by decide⟩).val :=
  D1.rhsIdx_val_of_single rfl i q
theorem d1_rhs_col (i : S100000x64.Idx) (q : D1.contr.Idx) : (D1.rhsIdx i q 1).val = (i 1).val := by
  unfold DotDims.rhsIdx
  rw [dif_neg (show ¬(1 : Fin S64x64.rank) ∈ D1.rhsBatch by decide), dif_pos (show (1 : Fin S64x64.rank) ∈ D1.rhsNonContracting by decide)]
  rfl

/-- The host's product of the features with the first weight matrix is the network's first dense stage. -/
theorem product1 (x : FVec Ideal S100000x64 .f32) (w : FVec Ideal S64x64 .f32) :
    Host.dotGeneral D1 none x w = dense64 x w := by
  funext i
  simp only [Host.dotGeneral]
  rw [Ideal.dotGeneral_apply, ← Equiv.sum_comp (contrEquiv1 D1 64 rfl rfl).symm]
  unfold dense64
  refine Finset.sum_congr rfl fun k _ => ?_
  have hk := contrEquiv1_symm_val D1 64 rfl rfl k
  have el : D1.lhsIdx i ((contrEquiv1 D1 64 rfl rfl).symm k) = ix2 (n0 := 100000) (n1 := 64) ⟨(i 0).val, (i 0).isLt⟩ k :=
    funext fun a => Fin.ext (by
      match a with
      | ⟨0, _⟩ => exact d1_lhs_row _ _
      | ⟨1, _⟩ => exact (d1_lhs_contr _ _).trans hk)
  have er : D1.rhsIdx i ((contrEquiv1 D1 64 rfl rfl).symm k) = ix2 (n0 := 64) (n1 := 64) k ⟨(i 1).val, (i 1).isLt⟩ :=
    funext fun a => Fin.ext (by
      match a with
      | ⟨0, _⟩ => exact (d1_rhs_contr _ _).trans hk
      | ⟨1, _⟩ => exact d1_rhs_col _ _)
  rw [el, er]

/-! ## The second product -/

theorem d2_lhs_row (i : S100000x32.Idx) (q : D2.contr.Idx) : (D2.lhsIdx i q 0).val = (i 0).val := by
  unfold DotDims.lhsIdx
  rw [dif_neg (show ¬(0 : Fin S100000x64.rank) ∈ D2.lhsBatch by decide), dif_pos (show (0 : Fin S100000x64.rank) ∈ D2.lhsNonContracting by decide)]
  rfl
theorem d2_lhs_contr (i : S100000x32.Idx) (q : D2.contr.Idx) : (D2.lhsIdx i q 1).val = (q ⟨0, by decide⟩).val :=
  D2.lhsIdx_val_of_single rfl i q
theorem d2_rhs_contr (i : S100000x32.Idx) (q : D2.contr.Idx) : (D2.rhsIdx i q 0).val = (q ⟨0, by decide⟩).val :=
  D2.rhsIdx_val_of_single rfl i q
theorem d2_rhs_col (i : S100000x32.Idx) (q : D2.contr.Idx) : (D2.rhsIdx i q 1).val = (i 1).val := by
  unfold DotDims.rhsIdx
  rw [dif_neg (show ¬(1 : Fin S64x32.rank) ∈ D2.rhsBatch by decide), dif_pos (show (1 : Fin S64x32.rank) ∈ D2.rhsNonContracting by decide)]
  rfl

/-- The host's product of the hidden features with the second weight matrix is the network's second dense stage. -/
theorem product2 (x : FVec Ideal S100000x64 .f32) (w : FVec Ideal S64x32 .f32) :
    Host.dotGeneral D2 none x w = dense32 x w := by
  funext i
  simp only [Host.dotGeneral]
  rw [Ideal.dotGeneral_apply, ← Equiv.sum_comp (contrEquiv1 D2 64 rfl rfl).symm]
  unfold dense32
  refine Finset.sum_congr rfl fun k _ => ?_
  have hk := contrEquiv1_symm_val D2 64 rfl rfl k
  have el : D2.lhsIdx i ((contrEquiv1 D2 64 rfl rfl).symm k) = ix2 (n0 := 100000) (n1 := 64) ⟨(i 0).val, (i 0).isLt⟩ k :=
    funext fun a => Fin.ext (by
      match a with
      | ⟨0, _⟩ => exact d2_lhs_row _ _
      | ⟨1, _⟩ => exact (d2_lhs_contr _ _).trans hk)
  have er : D2.rhsIdx i ((contrEquiv1 D2 64 rfl rfl).symm k) = ix2 (n0 := 64) (n1 := 32) k ⟨(i 1).val, (i 1).isLt⟩ :=
    funext fun a => Fin.ext (by
      match a with
      | ⟨0, _⟩ => exact (d2_rhs_contr _ _).trans hk
      | ⟨1, _⟩ => exact d2_rhs_col _ _)
  rw [el, er]

/-! ## The bias rows -/

/-- A vector of n entries made a one-row matrix and laid along every one of 100000 rows, read at (r, t), is its
    entry t. -/
theorem biasRow_apply {n : Nat} (h1 : (⟨1, ![n]⟩ : Shape).BroadcastsInDim ⟨2, ![1, n]⟩ ![1])
    (h2 : (⟨2, ![1, n]⟩ : Shape).BroadcastsInDim ⟨2, ![100000, n]⟩ ![0, 1]) (b : (⟨1, ![n]⟩ : Shape).Idx → EReal)
    (r : Fin 100000) (t : Fin n) :
    broadcastInDim ⟨2, ![100000, n]⟩ ![0, 1] h2 (broadcastInDim ⟨2, ![1, n]⟩ ![1] h1 b) (ix2 r t) = b (ix1 t) := by
  rw [broadcastInDim_oneRow_apply]
  refine broadcastInDim_apply ![1] h1 b (ix2 (0 : Fin 1) t) (ix1 t) ?_
  intro a
  match a with
  | ⟨0, _⟩ =>
    show t.val = if n = 1 then 0 else t.val
    split
    · have := t.isLt; omega
    · rfl

/-- The first layer's bias and clamp as the host writes them are the network's stage. -/
theorem biasClamp (a : FVec Ideal S100000x64 .f32) (b : FVec Ideal S64 .f32) :
    maximumf (addf a (broadcastInDim S100000x64 ![0, 1] Cert.ReferenceIdeal.Facts₀.bcast_S1x64_S100000x64_0_1
        (broadcastInDim S1x64 ![1] Cert.ReferenceIdeal.Facts₀.bcast_S64_S1x64_1 b)))
      (broadcastInDim S100000x64 ![] bcast_S_S100000x64 (constant S_ .f32 0x00000000#32))
    = biasClamp64 a b := by
  funext i
  obtain ⟨r, t, rfl⟩ : ∃ (r : Fin 100000) (t : Fin 64), i = ix2 r t := ⟨i 0, i 1, eq_ix2 i⟩
  show max (a (ix2 r t) + _) _ = max (a (ix2 r t) + b (ix1 t)) 0
  rw [biasRow_apply, broadcastInDim_scalar_apply]
  show max _ (Ideal.ofBits .f32 0x00000000#32) = _
  rw [Ideal.ofBits_zero_f32]

/-- The second layer's bias as the host writes it is the network's stage. -/
theorem bias (a : FVec Ideal S100000x32 .f32) (b : FVec Ideal S32 .f32) :
    addf a (broadcastInDim S100000x32 ![0, 1] Cert.ReferenceIdeal.Facts₀.bcast_S1x32_S100000x32_0_1
        (broadcastInDim S1x32 ![1] Cert.ReferenceIdeal.Facts₀.bcast_S32_S1x32_1 b))
    = bias32 a b := by
  funext i
  obtain ⟨r, t, rfl⟩ : ∃ (r : Fin 100000) (t : Fin 32), i = ix2 r t := ⟨i 0, i 1, eq_ix2 i⟩
  show a (ix2 r t) + _ = a (ix2 r t) + b (ix1 t)
  rw [biasRow_apply]

/-! ## The composed term -/

/-- The network with its four dense stages in the host's spelling. -/
def hostNetwork (x : FVec Ideal S100000x64 .f32) (row col : IVec S1700000 32) (w1 : FVec Ideal S64x64 .f32) (b1 : FVec Ideal S64 .f32)
    (w2 : FVec Ideal S64x32 .f32) (b2 : FVec Ideal S32 .f32) : FVec Ideal S100000x32 .f32 :=
  addf (propagate32 (Host.dotGeneral D2 none
      (maximumf (addf (propagate64 (Host.dotGeneral D1 none x w1) row col (edgeNorm (F := Ideal) row col))
          (broadcastInDim S100000x64 ![0, 1] Cert.ReferenceIdeal.Facts₀.bcast_S1x64_S100000x64_0_1
            (broadcastInDim S1x64 ![1] Cert.ReferenceIdeal.Facts₀.bcast_S64_S1x64_1 b1)))
        (broadcastInDim S100000x64 ![] bcast_S_S100000x64 (constant S_ .f32 0x00000000#32))) w2)
      row col (edgeNorm (F := Ideal) row col))
    (broadcastInDim S100000x32 ![0, 1] Cert.ReferenceIdeal.Facts₀.bcast_S1x32_S100000x32_0_1
      (broadcastInDim S1x32 ![1] Cert.ReferenceIdeal.Facts₀.bcast_S32_S1x32_1 b2))

/-- In the host's spelling or the network's, one function. -/
theorem hostNetwork_eq (x : FVec Ideal S100000x64 .f32) (row col : IVec S1700000 32) (w1 : FVec Ideal S64x64 .f32) (b1 : FVec Ideal S64 .f32)
    (w2 : FVec Ideal S64x32 .f32) (b2 : FVec Ideal S32 .f32) :
    hostNetwork x row col w1 b1 w2 b2 = network x row col w1 b1 w2 b2 := by
  unfold hostNetwork network
  rw [product1, biasClamp, product2, bias]

end Cert.GraphConv.Reference

namespace Cert.GraphConv

open Cert.ReferenceIdeal

/-- The reference's result term is the network of its arguments. -/
theorem reference_value (m : (ℓ : Loc nD τ sig) → Buf (Elt Ideal) ℓ) (c : Dev nD) :
    Cert.ReferenceIdeal.ValueP.res_main_v91 (F := Ideal) m c
      = network (m ((c.tc : Thread nD τ).loc main_arg0)) (rowOf (m ((c.tc : Thread nD τ).loc main_arg1)))
          (colOf (m ((c.tc : Thread nD τ).loc main_arg1))) (m ((c.tc : Thread nD τ).loc main_arg2))
          (m ((c.tc : Thread nD τ).loc main_arg3)) (m ((c.tc : Thread nD τ).loc main_arg4))
          (m ((c.tc : Thread nD τ).loc main_arg5)) := by
  refine Eq.trans ?_ (Reference.hostNetwork_eq _ _ _ _ _ _ _)
  unfold Cert.ReferenceIdeal.ValueP.res_main_v91 Reference.hostNetwork propagate32 propagate64 edgeNorm invSqrtDegree degree gatherIx rowOf colOf
  rfl

end Cert.GraphConv

end
-- ==== Proof.lean ====
/-
  A two-layer graph convolution on a Pallas TPU program against its plain jnp reference: equal results over the
  extended reals.

  Both programs compute, for node features x, an edge list with self loops appended and parameters W1, b1, W2, b2,
      out = P(relu(P(x·W1) + b1)·W2) + b2,
  where P sends, along every edge, the source node's row scaled by the edge's normalisation d(row)·d(col) into the
  target node and sums (d = 1/sqrt(degree) where the degree is positive, 0 elsewhere).
  The kernel program runs the two products x·W and the two bias stages as four Pallas regions over ten row blocks of
  10000 nodes each (the products on operands narrowed to a shorter float format, which is the identity on extended
  reals), computes the normalisation once, and builds its edge lists through a re-stacking of the two index rows; the
  reference uses whole-array host operations throughout and computes the normalisation once per layer. The edge
  traffic itself is the same host operations in both.
  The proof: each region leaves in its result array ONE whole-array function of the arrays it was entered with
  (Dense1, BiasClamp, Dense2, Bias); walking the kernel program's buffer contents through its nine segments gives its
  result as the function `network` of the arguments (KernelHost, over KernelRun); the reference's composed result
  term is the same `network` (ReferenceHost); memories that agree on the arguments therefore end with equal results.
  No law used needs finiteness: the products are the same sums on both sides, so the precondition is never opened.
-/
import proofs.«137230_j4200478016008_1_alg».proof.Defs
import proofs.«137230_j4200478016008_1_alg».proof.Proof.Gen.Kernel
import proofs.«137230_j4200478016008_1_alg».proof.Proof.Gen.Kernel.Frame
import proofs.«137230_j4200478016008_1_alg».proof.Proof.Gen.KernelIdeal
import proofs.«137230_j4200478016008_1_alg».proof.Proof.Gen.KernelIdeal.Frame
import proofs.«137230_j4200478016008_1_alg».proof.Proof.Gen.ReferenceIdeal
import proofs.«137230_j4200478016008_1_alg».proof.Proof.Gen.Pre_finite_inputs
import proofs.«137230_j4200478016008_1_alg».proof.Proof.KernelRun
import proofs.«137230_j4200478016008_1_alg».proof.Proof.KernelHost
import proofs.«137230_j4200478016008_1_alg».proof.Proof.ReferenceRun
import proofs.«137230_j4200478016008_1_alg».proof.Proof.ReferenceHost
import Idealize.ShloMosaic.Adequacy
import Idealize.ShloMosaic.Init

noncomputable section

namespace Cert.Proof

open Idealize.ShloMosaic Idealize.ShloMosaic.TcCoe Idealize.SL.Sem

/-- The word-level kernel program runs, faults nowhere, and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the six arguments both programs end with the network of those arguments in their
    result buffers. -/
theorem algebraic : Cert.algebraic_KernelIdeal_ReferenceIdeal := by
  intro m ρ m' ρ' _ hagree
  refine ⟨fun c => Cert.KernelIdeal.Gen.W9 (F := Ideal) m ρ c (Proc.devRef .tc Cert.KernelIdeal.main_v70),
    Cert.GraphConv.KernelRun.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  rw [Cert.GraphConv.reference_value m' c, h0, h1, h2, h3, h4, h5]
  exact (Cert.GraphConv.kernel_value m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
